-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1x1 : Shape := ⟨2, ![1, 1]⟩
abbrev S1x8192 : Shape := ⟨2, ![1, 8192]⟩
abbrev S256x256 : Shape := ⟨2, ![256, 256]⟩
abbrev S256x1 : Shape := ⟨2, ![256, 1]⟩
abbrev S256x8192 : Shape := ⟨2, ![256, 8192]⟩
abbrev S256 : Shape := ⟨1, ![256]⟩
abbrev S1 : Shape := ⟨1, ![1]⟩
abbrev S_ : Shape := ⟨0, ![]⟩

abbrev nBuf : Space → Nat
  | .hbm => 9
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .bf16⟩
  | .hbm, ⟨4, _⟩ => ⟨S8192x256, .bf16⟩
  | .hbm, ⟨5, _⟩ => ⟨S8192x1, .f32⟩
  | .hbm, ⟨6, _⟩ => ⟨S8192x1, .f32⟩
  | .hbm, ⟨7, _⟩ => ⟨S1x1, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S8192x256, .bf16⟩
  | .local _ .vmem, ⟨15, _⟩ => ⟨S8192x256, .bf16⟩
  | .local _ .vmem, ⟨16, _⟩ => ⟨S8192x1, .f32⟩
  | .local _ .vmem, ⟨17, _⟩ => ⟨S8192x1, .f32⟩
  | .local _ .vmem, ⟨18, _⟩ => ⟨S1x1, .f32⟩
  | .local _ .vmem, ⟨19, _⟩ => ⟨S1x8192, .f32⟩
  | .local _ .vmem, ⟨20, _⟩ => ⟨S1x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v3 : BitVec 32 := Scalar.muli arg0 c256_i32
  v3
def k1_off1 (i : grid1.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  let c0 : Index := 0#32
  ![v5.toNat, 0]
def k1_off2 (i : grid1.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v11 : Index := Scalar.indexCast v4
  let c0_2 : Index := 0#32
  ![v11.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S1x1_S1x1_0_0 : ∀ a, (![0, 0] : Fin 2 → Nat) a + S1x1.size a ≤ S1x1.size a
  h_S1x1 : 0 < S1x1.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  transposes_S8192x1_p1_0_S1x8192 : S8192x1.Transposes [1, 0] S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S256x256 : 0 < S256x256.numel
  shapeCasts_S256x256_S256x256 : S256x256.ShapeCasts S256x256
  h_S256x1 : 0 < S256x1.numel
  shapeCasts_S256x1_S256x1 : S256x1.ShapeCasts S256x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x256.size a ≤ S8192x256.size a
  k1_off2_inb : ∀ i : grid1.Coords, ∀ a, (k1_off2 i) a + S256x1.size a ≤ S8192x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S8192x1.size a
  hwx1_2 : ∀ i : grid1.Coords, EltTy.bits .f32 = 32 ∨ (Rect.block (s := S8192x1) S8192x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x1.size a ≤ S8192x1.size a
  hwx1_3 : ∀ i : grid1.Coords, EltTy.bits .f32 = 32 ∨ (Rect.block (s := S8192x1) S8192x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S8192x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_3) S8192x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S256x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S256x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x256, .f32⟩
  | .hbm, ⟨54, _⟩ => ⟨S_, .f32⟩
  | .hbm, ⟨55, _⟩ => ⟨S8192, .f32⟩
  | .hbm, ⟨56, _⟩ => ⟨S1x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S256x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_cst_16 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.GateBody.lean ====
/- REGION 0 (the gating call): the body obligation of its pipeline, at any float interpretation `F` and at a
   parameter `V`, the TensorCore's buffer contents when the region is entered. The body loads the three input
   blocks whole and stores each of its four output blocks whole, so after the body each output staging buffer holds
   one piece, a payload of the gate block and one feature block. -/
import proofs.«180728_j75256416960849_1_alg».proof.Proof.Gen.Kernel.Launch
import proofs.«180728_j75256416960849_1_alg».proof.Proof.Gen.Kernel.Skeleton
import proofs.«180728_j75256416960849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows: the structural look recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle, so an
    unfetched point has not moved the block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: the window is uncut and never idle, so an
    unfetched point has not moved the block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: the window is uncut and never idle, so an
    unfetched point has not moved the block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024×256 block. -/
abbrev rA : Rect S1024x256 := Rect.unit (s := S1024x256) ![0, 0] S1024x256.size inb_S1024x256_S1024x256_0_0
/-- The whole 1024×1 block. -/
abbrev rN : Rect S1024x1 := Rect.unit (s := S1024x1) ![0, 0] S1024x1.size inb_S1024x1_S1024x1_0_0

/-! ## What the body leaves in each output window's buffer

  `xh`, `xl` are the two feature blocks (windows 0 and 1) and `xg` the gate block (window 2). -/

/-- Window 3 after the body: the gated high features, one whole-block piece. -/
def out0_3 (xh xg : Vec F S1024x256 .f32) : Vec F S1024x256 .bf16 :=
  View.canon [⟨rA, k0_pay1 (View.ld xg rA) (View.ld xh rA)⟩]
/-- Window 4 after the body: the gated low features. -/
def out0_4 (xl xg : Vec F S1024x256 .f32) : Vec F S1024x256 .bf16 :=
  View.canon [⟨rA, k0_pay2 (View.ld xg rA) (View.ld xl rA)⟩]
/-- Window 5 after the body: the row sums of squares of the gated high features. -/
def out0_5 (xh xg : Vec F S1024x256 .f32) : Vec F S1024x1 .f32 :=
  View.canon [⟨rN, k0_pay3 (View.ld xg rA) (View.ld xh rA)⟩]
/-- Window 6 after the body: the row sums of squares of the gated low features. -/
def out0_6 (xl xg : Vec F S1024x256 .f32) : Vec F S1024x1 .f32 :=
  View.canon [⟨rN, k0_pay4 (View.ld xg rA) (View.ld xl rA)⟩]

/-- One whole-block store tiles a 1024×256 buffer, so it covers it. -/
theorem coverA {e : EltTy} (p0 : Vec F S1024x256 e) (y : S1024x256.Idx) :
    ∃ pc ∈ ([⟨rA, p0⟩] : List (View.Piece (Elt F) S1024x256 e)), y ∈ pc.1.set :=
  View.cover_of_tiled [⟨rA, p0⟩] S1024x256.size (by rfl) y
/-- One whole-block store tiles a 1024×1 buffer, so it covers it. -/
theorem coverN {e : EltTy} (p0 : Vec F S1024x1 e) (y : S1024x1.Idx) :
    ∃ pc ∈ ([⟨rN, p0⟩] : List (View.Piece (Elt F) S1024x1 e)), y ∈ pc.1.set :=
  View.cover_of_tiled [⟨rN, p0⟩] S1024x1.size (by rfl) y

/-! ## The body's triple -/

set_option maxHeartbeats 4000000 in
/-- The kernel body on whole staging memrefs, the inputs' at read contents and the outputs' at anything, runs to the
    continuation holding the inputs' as they were and each output's at `out0_W` of the inputs'. -/
theorem sound_kernel0 (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 x1 x2 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x2) ∗ owns (c : Thread nD τ) arg5 fullShare (out0_4 x1 x2)
            ∗ owns (c : Thread nD τ) arg6 fullShare (out0_5 x0 x2) ∗ owns (c : Thread nD τ) arg7 fullShare (out0_6 x1 x2)) -∗ K ⟨⟩))
      ⊢ wp frame (wpE (defs₀ (F := F)) Variants.none c none) E
          (cc0__gate_kernel i arg1 harg1 arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverA _)
  isplitl [H4]
  · iexists _; isplitr
    swap; · iexact H4
    ipureintro
    exact View.read_writes_eq_canon _ _ _ (coverA _)
  isplitl [H5]
  · iexists _; isplitr
    swap; · iexact H5
    ipureintro
    exact View.read_writes_eq_canon _ _ _ (coverN _)
  iexists _; isplitr
  swap; · iexact H6
  ipureintro
  exact View.read_writes_eq_canon _ _ _ (coverN _)

/-! ## The pipeline's proof data -/

/-- The proof data of pipeline 0 on core `c`: the arrays as the region finds them (`V`); after the body at point
    `t` each input's buffer at its block and each output's at `out0_W` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 2 t)
    | ⟨4, _⟩ => out0_4 (iblk0 V c 1 t) (iblk0 V c 2 t)
    | ⟨5, _⟩ => out0_5 (iblk0 V c 0 t) (iblk0 V c 2 t)
    | ⟨6, _⟩ => out0_6 (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 2 t) := by dsimp only [dat0]
theorem after0_4 (c : Dev nD) (t : Fin cfg0.N) : (dat0 V c).after 4 t = out0_4 (iblk0 V c 1 t) (iblk0 V c 2 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.K.PairRuns.lean ====
import proofs.«180728_j75256416960849_1_alg».proof.Proof.Gen.Kernel.Launch
import proofs.«180728_j75256416960849_1_alg».proof.Proof.Gen.Kernel.Skeleton
import proofs.«180728_j75256416960849_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of long extents: the structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinate (the scalar chain substituted). -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The memrefs the body is called with -/

/-- The accumulator's one staging buffer, through which its contents are stated. -/
abbrev VO1_4 : View sig .tc .vmem S1x1 .f32 := (Memref.whole cc1_stg4_0 : Memref sig .tc .vmem S1x1 .f32).view
/-- Each window's current staging memref at point `t`, spelled as the pipeline passes it, and its wholeness. -/
abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The two scratch rows: whole scoped buffers of the kernel's own, passed beside the windows. -/
abbrev scM1_0 : Memref sig .tc .vmem S1x8192 .f32 := Memref.whole cc1_scratch0
abbrev scM1_1 : Memref sig .tc .vmem S1x8192 .f32 := Memref.whole cc1_scratch1
/-- The same as views: what the rows hold is stated through them. -/
abbrev VS1_0 : View sig .tc .vmem S1x8192 .f32 := scM1_0.view
abbrev VS1_1 : View sig .tc .vmem S1x8192 .f32 := scM1_1.view

/-! ## The region invariant, opened -/

/-- The other region's fourteen staging buffers, scoped and not staged here: each whole at some contents. -/
def stgRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class's invariant, opened: the other region's staging buffers, the two scratch rows as memrefs owned at some
    contents, the generator register. -/
def PhiO1 (c : Dev nD) : sProp 𝕄 :=
  iprop(iprop(stgRest1 (F := F) c ∗ (∃ d, owns (c : Thread nD τ) scM1_0 fullShare d) ∗ (∃ d, owns (c : Thread nD τ) scM1_1 fullShare d)) ∗ (∃ r, prngReg c r))

theorem PhiA1_open (c : Dev nD) : (Pipeline.ΦA spec1 c : sProp 𝕄) ⊢ PhiO1 (F := F) c := by
  unfold Pipeline.ΦA PhiO1; rw [scopedRest1_eq]; unfold stgRest1
  simp only [scM1_0, scM1_1, owns_whole]
  iintro ⟨⟨R0, R1, R2, R3, R4, R5, R6, R7, R8, R9, R10, R11, R12, R13, S0, S1⟩, Hg⟩
  isplitr [Hg]
  swap; · iexact Hg
  isplitr [S0 S1]
  swap
  · isplitl [S0]; · iexact S0
    iexact S1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

theorem PhiA1_close (c : Dev nD) : PhiO1 (F := F) c ⊢ (Pipeline.ΦA spec1 c : sProp 𝕄) := by
  unfold Pipeline.ΦA PhiO1; rw [scopedRest1_eq]; unfold stgRest1
  simp only [scM1_0, scM1_1, owns_whole]
  iintro ⟨⟨⟨R0, R1, R2, R3, R4, R5, R6, R7, R8, R9, R10, R11, R12, R13⟩, S0, S1⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [S0]; · iexact S0
  iexact S1

/-- The class's invariant is its opened form. -/
theorem PhiA1_eq (c : Dev nD) : (Pipeline.ΦA spec1 c : sProp 𝕄) = PhiO1 (F := F) c :=
  BI.equiv_iff.mp ⟨PhiA1_open c, PhiA1_close c⟩

end Cert.Kernel.Frm

end
-- ==== Proof.K.PairRunA.lean ====
import proofs.«180728_j75256416960849_1_alg».proof.Proof.K.PairRuns

-- membership in a rectangle of long extents: the structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

-- (the run's proof term is large, and so are the vectors' extents: everything stays symbolic)
set_option maxHeartbeats 4000000 in
/-- What the body's stores leave in the accumulator's staging memref and in the two scratch rows, as pieces (last first),
    IN CASE A (the conditional taken: the first point), WITH the proof that on whole memrefs — the four inputs' at their
    contents, the accumulator's and the two rows' at anything — the body runs to the continuation holding the inputs' as they
    were and the other three with their pieces written. The pieces are the witness the run finds. -/
noncomputable def kernelRun1_A (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) :
    Σ' (L4 : List (View.Piece (Elt F) S1x1 .f32)) (LS0 : List (View.Piece (Elt F) S1x8192 .f32)), { LS1 : List (View.Piece (Elt F) S1x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mmd_kernel i arg1 harg1 arg2 harg2 arg3 harg3 arg4 harg4 arg5 harg5 arg6 harg6 arg7 harg7) K } := by
  refine ⟨?_, ?_, ?_, fun E K => ?run⟩
  case run =>
    simp only [cc1__mmd_kernel_eq_skeleton]; unfold cc1__mmd_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Frm

end
-- ==== Proof.K.PairRunB.lean ====
import proofs.«180728_j75256416960849_1_alg».proof.Proof.K.PairRunA

-- membership in a rectangle of long extents: the structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

-- (the run's proof term is large, and so are the vectors' extents: everything stays symbolic)
set_option maxHeartbeats 4000000 in
/-- What the body's store leaves in the accumulator's staging memref, as pieces, IN CASE B (the conditional not taken: every
    later point), WITH the proof that on whole memrefs — the four inputs' at their contents, the accumulator's at its running
    contents `xo4`, the two scratch rows at the contents `xs0`, `xs1` the first point left — the body runs to the
    continuation holding the inputs' and the two rows as they were (it only reads them) and the accumulator's with its
    pieces written. -/
noncomputable def kernelRun1_B (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs0 ∗ owns (c : Thread nD τ) arg7 fullShare xs1) -∗ K ⟨⟩))
          ⊢ wp frame (wpE (defs₀ (F := F)) Variants.none c none) E (cc1__mmd_kernel i arg1 harg1 arg2 harg2 arg3 harg3 arg4 harg4 arg5 harg5 arg6 harg6 arg7 harg7) K } := by
  refine ⟨?_, fun E K => ?run⟩
  case run =>
    simp only [cc1__mmd_kernel_eq_skeleton]; unfold cc1__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    iexists _; isplitr; · ipureintro; exact harg7.read_unread _
    iexact HS1

end Cert.Kernel.Frm

end
-- ==== Proof.K.PairBody.lean ====
import proofs.«180728_j75256416960849_1_alg».proof.Proof.K.PairRunB

-- membership in a rectangle of long extents: the structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

/-! ## What each case leaves -/

/-- Case A's pieces for the accumulator cover its one-element block. -/
theorem cover1_A_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) (y : S1x1.Idx) :
    ∃ pc ∈ (kernelRun1_A c i arg1 harg1 arg2 harg2 arg3 harg3 arg4 harg4 arg5 harg5 arg6 harg6 arg7 harg7 hc0 x0 x1 x2 x3).1, y ∈ pc.1.set :=
  View.cover_of_tiledL (kernelRun1_A c i arg1 harg1 arg2 harg2 arg3 harg3 arg4 harg4 arg5 harg5 arg6 harg6 arg7 harg7 hc0 x0 x1 x2 x3).1 S1x1.size (by sl_kernel_rfl) y

/-- What case A leaves in the accumulator's staging buffer: its pieces read back over junk. -/
def out1_A_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) : Vec F S1x1 .f32 :=
  VO1_4.read (Elt F) (VO1_4.writes (Elt F) VO1_4.junk (kernelRun1_A c i arg1 harg1 arg2 harg2 arg3 harg3 arg4 harg4 arg5 harg5 arg6 harg6 arg7 harg7 hc0 x0 x1 x2 x3).1)

/-- Case A's piece for the first scratch row covers it. -/
theorem scover1_A_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) (y : S1x8192.Idx) :
    ∃ pc ∈ (kernelRun1_A c i arg1 harg1 arg2 harg2 arg3 harg3 arg4 harg4 arg5 harg5 arg6 harg6 arg7 harg7 hc0 x0 x1 x2 x3).2.1, y ∈ pc.1.set :=
  View.cover_of_tiledL (kernelRun1_A c i arg1 harg1 arg2 harg2 arg3 harg3 arg4 harg4 arg5 harg5 arg6 harg6 arg7 harg7 hc0 x0 x1 x2 x3).2.1 S1x8192.size (by sl_kernel_rfl) y

/-- What case A leaves in the first scratch row. -/
def sout1_A_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) : Vec F S1x8192 .f32 :=
  VS1_0.read (Elt F) (VS1_0.writes (Elt F) VS1_0.junk (kernelRun1_A c i arg1 harg1 arg2 harg2 arg3 harg3 arg4 harg4 arg5 harg5 arg6 harg6 arg7 harg7 hc0 x0 x1 x2 x3).2.1)

/-- Case A's piece for the second scratch row covers it. -/
theorem scover1_A_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) (y : S1x8192.Idx) :
    ∃ pc ∈ (kernelRun1_A c i arg1 harg1 arg2 harg2 arg3 harg3 arg4 harg4 arg5 harg5 arg6 harg6 arg7 harg7 hc0 x0 x1 x2 x3).2.2.1, y ∈ pc.1.set :=
  View.cover_of_tiledL (kernelRun1_A c i arg1 harg1 arg2 harg2 arg3 harg3 arg4 harg4 arg5 harg5 arg6 harg6 arg7 harg7 hc0 x0 x1 x2 x3).2.2.1 S1x8192.size (by sl_kernel_rfl) y

/-- What case A leaves in the second scratch row. -/
def sout1_A_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) : Vec F S1x8192 .f32 :=
  VS1_1.read (Elt F) (VS1_1.writes (Elt F) VS1_1.junk (kernelRun1_A c i arg1 harg1 arg2 harg2 arg3 harg3 arg4 harg4 arg5 harg5 arg6 harg6 arg7 harg7 hc0 x0 x1 x2 x3).2.2.1)

/-- Case B's piece for the accumulator covers its block. -/
theorem cover1_B_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) (y : S1x1.Idx) :
    ∃ pc ∈ (kernelRun1_B c i arg1 harg1 arg2 harg2 arg3 harg3 arg4 harg4 arg5 harg5 arg6 harg6 arg7 harg7 hc0 x0 x1 x2 x3 xo4 xs0 xs1).1, y ∈ pc.1.set :=
  View.cover_of_tiledL (kernelRun1_B c i arg1 harg1 arg2 harg2 arg3 harg3 arg4 harg4 arg5 harg5 arg6 harg6 arg7 harg7 hc0 x0 x1 x2 x3 xo4 xs0 xs1).1 S1x1.size (by sl_kernel_rfl) y

/-- What case B leaves in the accumulator's staging buffer. -/
def out1_B_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) : Vec F S1x1 .f32 :=
  VO1_4.read (Elt F) (VO1_4.writes (Elt F) VO1_4.junk (kernelRun1_B c i arg1 harg1 arg2 harg2 arg3 harg3 arg4 harg4 arg5 harg5 arg6 harg6 arg7 harg7 hc0 x0 x1 x2 x3 xo4 xs0 xs1).1)

/-- Case B only reads the scratch rows: what it leaves in each is what it found. -/
def sout1_B_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) : Vec F S1x8192 .f32 := xs0
def sout1_B_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) : Vec F S1x8192 .f32 := xs1

/-! ## What the accumulator and the scratch rows hold after each point -/

/-- After the body at position `n`: the accumulator's staging buffer, then the two scratch rows. The first point is case
    A; every later one case B over what the point before left in all three. -/
def outsAt1 (c : Dev nD) : (n : ℕ) → n < cfg1.N → Vec F S1x1 .f32 × Vec F S1x8192 .f32 × Vec F S1x8192 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 32 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2)

/-- `outsAt1` at a point of case A. -/
theorem outsAt1_A (c : Dev nD) (t : Fin cfg1.N) (h0 : t.val % 32 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: over what the point before left. -/
theorem outsAt1_B (c : Dev nD) (t : Fin cfg1.N) (h0 : ¬t.val % 32 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant with the carried scratch rows -/

/-- Before position `n`: before the first point the class's invariant; afterwards the other region's staging buffers at
    anything, the two scratch rows at what the point before left in them, the generator register at some state. -/
def PhiS1 (c : Dev nD) : (n : ℕ) → n ≤ cfg1.N → sProp 𝕄
  | 0, _ => Pipeline.ΦA spec1 c
  | n + 1, hn => iprop(iprop(stgRest1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(stgRest1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(stgRest1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of region 1 on core `c`: the arrays as the region finds them; after the body each input's buffer at its
    block and the accumulator's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point of case B the accumulator's staging buffer holds what the body left at the point before: the point is not
    the first, and the buffer is written back at the last point only. -/
theorem before1_4_B (c : Dev nD) (t : Fin cfg1.N) (h0 : ¬t.val % 32 = 0) (d) :
    (dat1 V c).before 4 t d = (outsAt1 V c (t.val - 1) (Nat.lt_of_le_of_lt (Nat.sub_le _ _) t.isLt)).1 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4000000 in
/-- The body at any point: the inputs' memrefs hold their blocks; the closed form says which case the point is in; at a later
    point the accumulator holds what the point before left and the invariant hands the body the two scratch rows at what the
    point before left (at anything at the first point), taking them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 32 := lt_of_lt_of_eq t.isLt (show cfg1.N = 32 from N_1)
  by_cases h0 : t.val % 32 = 0
  · have hz : t.val = 0 := by omega
    rw [outsAt1_A V c t h0]
    unfold out1_A_4 sout1_A_0 sout1_A_1; (try dsimp only)
    rw [PhiS1_castSucc V c t, PhiS1_zero V c _ _ hz, PhiA1_eq]; unfold PhiO1
    iintro ⟨⟨⟨HR, HS0, HS1⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HR HS0 HS1 Hg]
    · isplitr [Hg]
      swap; · iexact Hg
      isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _)
      unfold owns; iexists _; isplitr
      swap; · iexact HS1
      ipureintro; exact View.read_writes_of_cover _ _ _ _ _ (scover1_A_1 c _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _ _ _ _ _)
  · have hz : t.val ≠ 0 := by omega
    rw [outsAt1_B V c t h0]
    simp only [before1_4_B V c t h0]
    unfold out1_B_4 sout1_B_0 sout1_B_1; (try dsimp only)
    rw [PhiS1_castSucc V c t, PhiS1_pos V c _ _ hz]
    iintro ⟨⟨⟨HR, HS0, HS1⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, ⟨%e4, H4⟩, HS0, HS1⟩
    isplitl [HR HS0 HS1 Hg]
    · isplitr [Hg]
      swap; · iexact Hg
      isplitl [HR]; · iexact HR
      isplitl [HS0]; · iexact HS0
      iexact HS1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold PhiO1
  iintro ⟨⟨HR, HS0, HS1⟩, Hg⟩
  isplitr [Hg]
  swap; · iexact Hg
  isplitl [HR]; · iexact HR
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Frm

end
-- ==== Proof.K.Run.lean ====
/-
  The whole run of the word-level program: the gating region, the pairwise region, one reshape of the accumulator
  to a scalar. Between two items every unscoped buffer of a core sits at a known valuation: the launch memory, then each
  region's arrays replaced by what its write-backs leave. The run ends with every unscoped buffer at the last valuation,
  from which the argument arrays are read back unchanged.
-/
import proofs.«180728_j75256416960849_1_alg».proof.Proof.K.GateBody
import proofs.«180728_j75256416960849_1_alg».proof.Proof.K.PairBody
import Idealize.ShloMosaic.Lib.ValueIdx
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main is region 0, region 1, one host reshape

## The buffers' contents at each boundary -/

/-- Core `c`'s buffers at launch. -/
abbrev W0 : Dev nD → Valuation τ sig (Elt F) := fun c b => (s₀ m ρ).mem ((c : Dev nD), b)
/-- The same read at the TensorCore's references: what region 0 is entered with. -/
abbrev V0 : (c : Dev nD) → (b : Ref sig .tc) → Buf (Elt F) ((c : Thread nD τ).loc b) := fun c b => W0 m ρ c b
/-- After region 0: its arrays at what its write-backs leave, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what region 1 is entered with. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as region 0 left it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host reshape: the end. -/
abbrev W3 : Dev nD → Valuation τ sig (Elt F) := fun c => StableHlo.after hostOps2 (W2 m ρ c)

/-! ### The arguments end as launched -/

theorem hostOps2_keeps (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps2_keeps m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := hostOps2_keeps m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := hostOps2_keeps m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-- The returned scalar is the one entry of the accumulator array. -/
theorem W3_main_v2 (c : Dev nD) (i : S_.Idx) :
    (W3 m ρ c (Proc.devRef .tc main_v2) : S_.Idx → Elt F .f32) i
      = (W2 m ρ c (Proc.devRef .tc main_v1) : S1x1.Idx → Elt F .f32) (ValueIdx.ix2 (0 : Fin 1) (0 : Fin 1)) := by
  show StableHlo.after hostOps2 (W2 m ρ c) (Proc.devRef .tc main_v2) i = _
  after_results
  exact shapeCast_apply _ _ _ _ (by
    show (S1x1.rowMajor (ValueIdx.ix2 (0 : Fin 1) (0 : Fin 1))).val = (S_.rowMajor i).val
    have h1 := (S1x1.rowMajor (ValueIdx.ix2 (0 : Fin 1) (0 : Fin 1))).isLt
    have h2 := (S_.rowMajor i).isLt
    have e1 : S1x1.numel = 1 := by decide
    have e2 : S_.numel = 1 := by decide
    omega)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered from every unscoped buffer at the launch contents, left with its arrays at what it wrote back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with its one output array at what it wrote back; its invariant
    takes the scoped rest and the generator register in and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V1 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last (Pipeline.pin (pcfgs (F := F)) adm 1).N) ⊢ Pipeline.ΦA spec1 c := hout1 (V1 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Frm

end
-- ==== Proof.KI.GateBody.lean ====
/- REGION 0 (the gating call): the body obligation of its pipeline, at any float interpretation `F` and at a
   parameter `V`, the TensorCore's buffer contents when the region is entered. The body loads the three input
   blocks whole and stores each of its four output blocks whole, so after the body each output staging buffer holds
   one piece, a payload of the gate block and one feature block. -/
import proofs.«180728_j75256416960849_1_alg».proof.Proof.Gen.KernelIdeal.Launch
import proofs.«180728_j75256416960849_1_alg».proof.Proof.Gen.KernelIdeal.Skeleton
import proofs.«180728_j75256416960849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows: the structural look recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle, so an
    unfetched point has not moved the block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: the window is uncut and never idle, so an
    unfetched point has not moved the block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: the window is uncut and never idle, so an
    unfetched point has not moved the block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024×256 block. -/
abbrev rA : Rect S1024x256 := Rect.unit (s := S1024x256) ![0, 0] S1024x256.size inb_S1024x256_S1024x256_0_0
/-- The whole 1024×1 block. -/
abbrev rN : Rect S1024x1 := Rect.unit (s := S1024x1) ![0, 0] S1024x1.size inb_S1024x1_S1024x1_0_0

/-! ## What the body leaves in each output window's buffer

  `xh`, `xl` are the two feature blocks (windows 0 and 1) and `xg` the gate block (window 2). -/

/-- Window 3 after the body: the gated high features, one whole-block piece. -/
def out0_3 (xh xg : Vec F S1024x256 .f32) : Vec F S1024x256 .bf16 :=
  View.canon [⟨rA, k0_pay3 (View.ld xg rA) (View.ld xh rA)⟩]
/-- Window 4 after the body: the gated low features. -/
def out0_4 (xl xg : Vec F S1024x256 .f32) : Vec F S1024x256 .bf16 :=
  View.canon [⟨rA, k0_pay4 (View.ld xg rA) (View.ld xl rA)⟩]
/-- Window 5 after the body: the row sums of squares of the gated high features. -/
def out0_5 (xh xg : Vec F S1024x256 .f32) : Vec F S1024x1 .f32 :=
  View.canon [⟨rN, k0_pay5 (View.ld xg rA) (View.ld xh rA)⟩]
/-- Window 6 after the body: the row sums of squares of the gated low features. -/
def out0_6 (xl xg : Vec F S1024x256 .f32) : Vec F S1024x1 .f32 :=
  View.canon [⟨rN, k0_pay6 (View.ld xg rA) (View.ld xl rA)⟩]

/-- One whole-block store tiles a 1024×256 buffer, so it covers it. -/
theorem coverA {e : EltTy} (p0 : Vec F S1024x256 e) (y : S1024x256.Idx) :
    ∃ pc ∈ ([⟨rA, p0⟩] : List (View.Piece (Elt F) S1024x256 e)), y ∈ pc.1.set :=
  View.cover_of_tiled [⟨rA, p0⟩] S1024x256.size (by rfl) y
/-- One whole-block store tiles a 1024×1 buffer, so it covers it. -/
theorem coverN {e : EltTy} (p0 : Vec F S1024x1 e) (y : S1024x1.Idx) :
    ∃ pc ∈ ([⟨rN, p0⟩] : List (View.Piece (Elt F) S1024x1 e)), y ∈ pc.1.set :=
  View.cover_of_tiled [⟨rN, p0⟩] S1024x1.size (by rfl) y

/-! ## The body's triple -/

set_option maxHeartbeats 4000000 in
/-- The kernel body on whole staging memrefs, the inputs' at read contents and the outputs' at anything, runs to the
    continuation holding the inputs' as they were and each output's at `out0_W` of the inputs'. -/
theorem sound_kernel0 (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .bf16) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 x1 x2 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x2) ∗ owns (c : Thread nD τ) arg5 fullShare (out0_4 x1 x2)
            ∗ owns (c : Thread nD τ) arg6 fullShare (out0_5 x0 x2) ∗ owns (c : Thread nD τ) arg7 fullShare (out0_6 x1 x2)) -∗ K ⟨⟩))
      ⊢ wp frame (wpE (defs₀ (F := F)) Variants.none c none) E
          (cc0__gate_kernel i arg1 harg1 arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverA _)
  isplitl [H4]
  · iexists _; isplitr
    swap; · iexact H4
    ipureintro
    exact View.read_writes_eq_canon _ _ _ (coverA _)
  isplitl [H5]
  · iexists _; isplitr
    swap; · iexact H5
    ipureintro
    exact View.read_writes_eq_canon _ _ _ (coverN _)
  iexists _; isplitr
  swap; · iexact H6
  ipureintro
  exact View.read_writes_eq_canon _ _ _ (coverN _)

/-! ## The pipeline's proof data -/

/-- The proof data of pipeline 0 on core `c`: the arrays as the region finds them (`V`); after the body at point
    `t` each input's buffer at its block and each output's at `out0_W` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 2 t)
    | ⟨4, _⟩ => out0_4 (iblk0 V c 1 t) (iblk0 V c 2 t)
    | ⟨5, _⟩ => out0_5 (iblk0 V c 0 t) (iblk0 V c 2 t)
    | ⟨6, _⟩ => out0_6 (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 2 t) := by dsimp only [dat0]
theorem after0_4 (c : Dev nD) (t : Fin cfg0.N) : (dat0 V c).after 4 t = out0_4 (iblk0 V c 1 t) (iblk0 V c 2 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KI.PairRuns.lean ====
import proofs.«180728_j75256416960849_1_alg».proof.Proof.Gen.KernelIdeal.Launch
import proofs.«180728_j75256416960849_1_alg».proof.Proof.Gen.KernelIdeal.Skeleton
import proofs.«180728_j75256416960849_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of long extents: the structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinate (the scalar chain substituted). -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The memrefs the body is called with -/

/-- The accumulator's one staging buffer, through which its contents are stated. -/
abbrev VO1_4 : View sig .tc .vmem S1x1 .f32 := (Memref.whole cc1_stg4_0 : Memref sig .tc .vmem S1x1 .f32).view
/-- Each window's current staging memref at point `t`, spelled as the pipeline passes it, and its wholeness. -/
abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The two scratch rows: whole scoped buffers of the kernel's own, passed beside the windows. -/
abbrev scM1_0 : Memref sig .tc .vmem S1x8192 .f32 := Memref.whole cc1_scratch0
abbrev scM1_1 : Memref sig .tc .vmem S1x8192 .f32 := Memref.whole cc1_scratch1
/-- The same as views: what the rows hold is stated through them. -/
abbrev VS1_0 : View sig .tc .vmem S1x8192 .f32 := scM1_0.view
abbrev VS1_1 : View sig .tc .vmem S1x8192 .f32 := scM1_1.view

/-! ## The region invariant, opened -/

/-- The other region's fourteen staging buffers, scoped and not staged here: each whole at some contents. -/
def stgRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class's invariant, opened: the other region's staging buffers, the two scratch rows as memrefs owned at some
    contents, the generator register. -/
def PhiO1 (c : Dev nD) : sProp 𝕄 :=
  iprop(iprop(stgRest1 (F := F) c ∗ (∃ d, owns (c : Thread nD τ) scM1_0 fullShare d) ∗ (∃ d, owns (c : Thread nD τ) scM1_1 fullShare d)) ∗ (∃ r, prngReg c r))

theorem PhiA1_open (c : Dev nD) : (Pipeline.ΦA spec1 c : sProp 𝕄) ⊢ PhiO1 (F := F) c := by
  unfold Pipeline.ΦA PhiO1; rw [scopedRest1_eq]; unfold stgRest1
  simp only [scM1_0, scM1_1, owns_whole]
  iintro ⟨⟨R0, R1, R2, R3, R4, R5, R6, R7, R8, R9, R10, R11, R12, R13, S0, S1⟩, Hg⟩
  isplitr [Hg]
  swap; · iexact Hg
  isplitr [S0 S1]
  swap
  · isplitl [S0]; · iexact S0
    iexact S1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

theorem PhiA1_close (c : Dev nD) : PhiO1 (F := F) c ⊢ (Pipeline.ΦA spec1 c : sProp 𝕄) := by
  unfold Pipeline.ΦA PhiO1; rw [scopedRest1_eq]; unfold stgRest1
  simp only [scM1_0, scM1_1, owns_whole]
  iintro ⟨⟨⟨R0, R1, R2, R3, R4, R5, R6, R7, R8, R9, R10, R11, R12, R13⟩, S0, S1⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [S0]; · iexact S0
  iexact S1

/-- The class's invariant is its opened form. -/
theorem PhiA1_eq (c : Dev nD) : (Pipeline.ΦA spec1 c : sProp 𝕄) = PhiO1 (F := F) c :=
  BI.equiv_iff.mp ⟨PhiA1_open c, PhiA1_close c⟩

end Cert.KernelIdeal.Frm

end
-- ==== Proof.KI.PairRunA.lean ====
import proofs.«180728_j75256416960849_1_alg».proof.Proof.KI.PairRuns

-- membership in a rectangle of long extents: the structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

-- (the run's proof term is large, and so are the vectors' extents: everything stays symbolic)
set_option maxHeartbeats 4000000 in
/-- What the body's stores leave in the accumulator's staging memref and in the two scratch rows, as pieces (last first),
    IN CASE A (the conditional taken: the first point), WITH the proof that on whole memrefs — the four inputs' at their
    contents, the accumulator's and the two rows' at anything — the body runs to the continuation holding the inputs' as they
    were and the other three with their pieces written. The pieces are the witness the run finds. -/
noncomputable def kernelRun1_A (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) :
    Σ' (L4 : List (View.Piece (Elt F) S1x1 .f32)) (LS0 : List (View.Piece (Elt F) S1x8192 .f32)), { LS1 : List (View.Piece (Elt F) S1x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mmd_kernel i arg1 harg1 arg2 harg2 arg3 harg3 arg4 harg4 arg5 harg5 arg6 harg6 arg7 harg7) K } := by
  refine ⟨?_, ?_, ?_, fun E K => ?run⟩
  case run =>
    simp only [cc1__mmd_kernel_eq_skeleton]; unfold cc1__mmd_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Frm

end
-- ==== Proof.KI.PairRunB.lean ====
import proofs.«180728_j75256416960849_1_alg».proof.Proof.KI.PairRunA

-- membership in a rectangle of long extents: the structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

-- (the run's proof term is large, and so are the vectors' extents: everything stays symbolic)
set_option maxHeartbeats 4000000 in
/-- What the body's store leaves in the accumulator's staging memref, as pieces, IN CASE B (the conditional not taken: every
    later point), WITH the proof that on whole memrefs — the four inputs' at their contents, the accumulator's at its running
    contents `xo4`, the two scratch rows at the contents `xs0`, `xs1` the first point left — the body runs to the
    continuation holding the inputs' and the two rows as they were (it only reads them) and the accumulator's with its
    pieces written. -/
noncomputable def kernelRun1_B (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs0 ∗ owns (c : Thread nD τ) arg7 fullShare xs1) -∗ K ⟨⟩))
          ⊢ wp frame (wpE (defs₀ (F := F)) Variants.none c none) E (cc1__mmd_kernel i arg1 harg1 arg2 harg2 arg3 harg3 arg4 harg4 arg5 harg5 arg6 harg6 arg7 harg7) K } := by
  refine ⟨?_, fun E K => ?run⟩
  case run =>
    simp only [cc1__mmd_kernel_eq_skeleton]; unfold cc1__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    iexists _; isplitr; · ipureintro; exact harg7.read_unread _
    iexact HS1

end Cert.KernelIdeal.Frm

end
-- ==== Proof.KI.PairBody.lean ====
import proofs.«180728_j75256416960849_1_alg».proof.Proof.KI.PairRunB

-- membership in a rectangle of long extents: the structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered: the parameter everything here is stated at
variable (V : (c : Dev nD) → (b : Ref sig .tc) → Buf (Elt F) ((c : Thread nD τ).loc b))

/-! ## What each case leaves -/

/-- Case A's pieces for the accumulator cover its one-element block. -/
theorem cover1_A_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) (y : S1x1.Idx) :
    ∃ pc ∈ (kernelRun1_A c i arg1 harg1 arg2 harg2 arg3 harg3 arg4 harg4 arg5 harg5 arg6 harg6 arg7 harg7 hc0 x0 x1 x2 x3).1, y ∈ pc.1.set :=
  View.cover_of_tiledL (kernelRun1_A c i arg1 harg1 arg2 harg2 arg3 harg3 arg4 harg4 arg5 harg5 arg6 harg6 arg7 harg7 hc0 x0 x1 x2 x3).1 S1x1.size (by sl_kernel_rfl) y

/-- What case A leaves in the accumulator's staging buffer: its pieces read back over junk. -/
def out1_A_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) : Vec F S1x1 .f32 :=
  VO1_4.read (Elt F) (VO1_4.writes (Elt F) VO1_4.junk (kernelRun1_A c i arg1 harg1 arg2 harg2 arg3 harg3 arg4 harg4 arg5 harg5 arg6 harg6 arg7 harg7 hc0 x0 x1 x2 x3).1)

/-- Case A's piece for the first scratch row covers it. -/
theorem scover1_A_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) (y : S1x8192.Idx) :
    ∃ pc ∈ (kernelRun1_A c i arg1 harg1 arg2 harg2 arg3 harg3 arg4 harg4 arg5 harg5 arg6 harg6 arg7 harg7 hc0 x0 x1 x2 x3).2.1, y ∈ pc.1.set :=
  View.cover_of_tiledL (kernelRun1_A c i arg1 harg1 arg2 harg2 arg3 harg3 arg4 harg4 arg5 harg5 arg6 harg6 arg7 harg7 hc0 x0 x1 x2 x3).2.1 S1x8192.size (by sl_kernel_rfl) y

/-- What case A leaves in the first scratch row. -/
def sout1_A_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) : Vec F S1x8192 .f32 :=
  VS1_0.read (Elt F) (VS1_0.writes (Elt F) VS1_0.junk (kernelRun1_A c i arg1 harg1 arg2 harg2 arg3 harg3 arg4 harg4 arg5 harg5 arg6 harg6 arg7 harg7 hc0 x0 x1 x2 x3).2.1)

/-- Case A's piece for the second scratch row covers it. -/
theorem scover1_A_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) (y : S1x8192.Idx) :
    ∃ pc ∈ (kernelRun1_A c i arg1 harg1 arg2 harg2 arg3 harg3 arg4 harg4 arg5 harg5 arg6 harg6 arg7 harg7 hc0 x0 x1 x2 x3).2.2.1, y ∈ pc.1.set :=
  View.cover_of_tiledL (kernelRun1_A c i arg1 harg1 arg2 harg2 arg3 harg3 arg4 harg4 arg5 harg5 arg6 harg6 arg7 harg7 hc0 x0 x1 x2 x3).2.2.1 S1x8192.size (by sl_kernel_rfl) y

/-- What case A leaves in the second scratch row. -/
def sout1_A_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) : Vec F S1x8192 .f32 :=
  VS1_1.read (Elt F) (VS1_1.writes (Elt F) VS1_1.junk (kernelRun1_A c i arg1 harg1 arg2 harg2 arg3 harg3 arg4 harg4 arg5 harg5 arg6 harg6 arg7 harg7 hc0 x0 x1 x2 x3).2.2.1)

/-- Case B's piece for the accumulator covers its block. -/
theorem cover1_B_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) (y : S1x1.Idx) :
    ∃ pc ∈ (kernelRun1_B c i arg1 harg1 arg2 harg2 arg3 harg3 arg4 harg4 arg5 harg5 arg6 harg6 arg7 harg7 hc0 x0 x1 x2 x3 xo4 xs0 xs1).1, y ∈ pc.1.set :=
  View.cover_of_tiledL (kernelRun1_B c i arg1 harg1 arg2 harg2 arg3 harg3 arg4 harg4 arg5 harg5 arg6 harg6 arg7 harg7 hc0 x0 x1 x2 x3 xo4 xs0 xs1).1 S1x1.size (by sl_kernel_rfl) y

/-- What case B leaves in the accumulator's staging buffer. -/
def out1_B_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) : Vec F S1x1 .f32 :=
  VO1_4.read (Elt F) (VO1_4.writes (Elt F) VO1_4.junk (kernelRun1_B c i arg1 harg1 arg2 harg2 arg3 harg3 arg4 harg4 arg5 harg5 arg6 harg6 arg7 harg7 hc0 x0 x1 x2 x3 xo4 xs0 xs1).1)

/-- Case B only reads the scratch rows: what it leaves in each is what it found. -/
def sout1_B_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) : Vec F S1x8192 .f32 := xs0
def sout1_B_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) : Vec F S1x8192 .f32 := xs1

/-! ## What the accumulator and the scratch rows hold after each point -/

/-- After the body at position `n`: the accumulator's staging buffer, then the two scratch rows. The first point is case
    A; every later one case B over what the point before left in all three. -/
def outsAt1 (c : Dev nD) : (n : ℕ) → n < cfg1.N → Vec F S1x1 .f32 × Vec F S1x8192 .f32 × Vec F S1x8192 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 32 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2)

/-- `outsAt1` at a point of case A. -/
theorem outsAt1_A (c : Dev nD) (t : Fin cfg1.N) (h0 : t.val % 32 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: over what the point before left. -/
theorem outsAt1_B (c : Dev nD) (t : Fin cfg1.N) (h0 : ¬t.val % 32 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant with the carried scratch rows -/

/-- Before position `n`: before the first point the class's invariant; afterwards the other region's staging buffers at
    anything, the two scratch rows at what the point before left in them, the generator register at some state. -/
def PhiS1 (c : Dev nD) : (n : ℕ) → n ≤ cfg1.N → sProp 𝕄
  | 0, _ => Pipeline.ΦA spec1 c
  | n + 1, hn => iprop(iprop(stgRest1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(stgRest1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(stgRest1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of region 1 on core `c`: the arrays as the region finds them; after the body each input's buffer at its
    block and the accumulator's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point of case B the accumulator's staging buffer holds what the body left at the point before: the point is not
    the first, and the buffer is written back at the last point only. -/
theorem before1_4_B (c : Dev nD) (t : Fin cfg1.N) (h0 : ¬t.val % 32 = 0) (d) :
    (dat1 V c).before 4 t d = (outsAt1 V c (t.val - 1) (Nat.lt_of_le_of_lt (Nat.sub_le _ _) t.isLt)).1 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4000000 in
/-- The body at any point: the inputs' memrefs hold their blocks; the closed form says which case the point is in; at a later
    point the accumulator holds what the point before left and the invariant hands the body the two scratch rows at what the
    point before left (at anything at the first point), taking them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 32 := lt_of_lt_of_eq t.isLt (show cfg1.N = 32 from N_1)
  by_cases h0 : t.val % 32 = 0
  · have hz : t.val = 0 := by omega
    rw [outsAt1_A V c t h0]
    unfold out1_A_4 sout1_A_0 sout1_A_1; (try dsimp only)
    rw [PhiS1_castSucc V c t, PhiS1_zero V c _ _ hz, PhiA1_eq]; unfold PhiO1
    iintro ⟨⟨⟨HR, HS0, HS1⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HR HS0 HS1 Hg]
    · isplitr [Hg]
      swap; · iexact Hg
      isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _)
      unfold owns; iexists _; isplitr
      swap; · iexact HS1
      ipureintro; exact View.read_writes_of_cover _ _ _ _ _ (scover1_A_1 c _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _ _ _ _ _)
  · have hz : t.val ≠ 0 := by omega
    rw [outsAt1_B V c t h0]
    simp only [before1_4_B V c t h0]
    unfold out1_B_4 sout1_B_0 sout1_B_1; (try dsimp only)
    rw [PhiS1_castSucc V c t, PhiS1_pos V c _ _ hz]
    iintro ⟨⟨⟨HR, HS0, HS1⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) _ _ _).2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, ⟨%e4, H4⟩, HS0, HS1⟩
    isplitl [HR HS0 HS1 Hg]
    · isplitr [Hg]
      swap; · iexact Hg
      isplitl [HR]; · iexact HR
      isplitl [HS0]; · iexact HS0
      iexact HS1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold PhiO1
  iintro ⟨⟨HR, HS0, HS1⟩, Hg⟩
  isplitr [Hg]
  swap; · iexact Hg
  isplitl [HR]; · iexact HR
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Frm

end
-- ==== Proof.KI.Run.lean ====
/-
  The whole run of the idealized program: the gating region, the pairwise region, one reshape of the accumulator
  to a scalar. Between two items every unscoped buffer of a core sits at a known valuation: the launch memory, then each
  region's arrays replaced by what its write-backs leave. The run ends with every unscoped buffer at the last valuation,
  from which the argument arrays are read back unchanged and the returned scalar is the accumulator's one entry.
-/
import proofs.«180728_j75256416960849_1_alg».proof.Proof.KI.GateBody
import proofs.«180728_j75256416960849_1_alg».proof.Proof.KI.PairBody
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main is region 0, region 1, one host reshape

## The buffers' contents at each boundary -/

/-- Core `c`'s buffers at launch. -/
abbrev W0 : Dev nD → Valuation τ sig (Elt F) := fun c b => (s₀ m ρ).mem ((c : Dev nD), b)
/-- The same read at the TensorCore's references: what region 0 is entered with. -/
abbrev V0 : (c : Dev nD) → (b : Ref sig .tc) → Buf (Elt F) ((c : Thread nD τ).loc b) := fun c b => W0 m ρ c b
/-- After region 0: its arrays at what its write-backs leave, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what region 1 is entered with. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as region 0 left it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host reshape: the end. -/
abbrev W3 : Dev nD → Valuation τ sig (Elt F) := fun c => StableHlo.after hostOps2 (W2 m ρ c)

/-! ### The arguments end as launched -/

theorem hostOps2_keeps (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps2_keeps m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := hostOps2_keeps m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := hostOps2_keeps m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-- The returned scalar is the one entry of the accumulator array. -/
theorem W3_main_v2 (c : Dev nD) (i : S_.Idx) :
    (W3 m ρ c (Proc.devRef .tc main_v2) : S_.Idx → Elt F .f32) i
      = (W2 m ρ c (Proc.devRef .tc main_v1) : S1x1.Idx → Elt F .f32) (ValueIdx.ix2 (0 : Fin 1) (0 : Fin 1)) := by
  show StableHlo.after hostOps2 (W2 m ρ c) (Proc.devRef .tc main_v2) i = _
  after_results
  exact shapeCast_apply _ _ _ _ (by
    show (S1x1.rowMajor (ValueIdx.ix2 (0 : Fin 1) (0 : Fin 1))).val = (S_.rowMajor i).val
    have h1 := (S1x1.rowMajor (ValueIdx.ix2 (0 : Fin 1) (0 : Fin 1))).isLt
    have h2 := (S_.rowMajor i).isLt
    have e1 : S1x1.numel = 1 := by decide
    have e2 : S_.numel = 1 := by decide
    omega)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered from every unscoped buffer at the launch contents, left with its arrays at what it wrote back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with its one output array at what it wrote back; its invariant
    takes the scoped rest and the generator register in and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V1 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last (Pipeline.pin (pcfgs (F := F)) adm 1).N) ⊢ Pipeline.ΦA spec1 c := hout1 (V1 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Frm

end
-- ==== Proof.Spec.lean ====
/-
  The two closed forms of the pairwise radial-basis discrepancy that the certificate joins, over the extended reals.

  The inputs are three arrays `x, y, g` of 8192 rows of 256 entries. With `a = x · g` and `b = y · g` entrywise,
  `sqn a r = ∑ d, a(r,d)²` the squared length of row `r` and `dot a b r s = ∑ d, a(r,d) · b(s,d)`, the kernel
  entry between rows `r` and `s` is the exponential of minus half the squared distance
  `sqn a r + sqn b s - 2 · dot a b r s`.

  * `refG`: the entry spelt `exp (-(…) / 2)`, summed over all pairs, each of the three sums divided by `2^26`
    (`= 8192²`), combined as `hh + ll - 2 · hl`.
  * `kerG`: the entry spelt `exp ((0 - …) · ½)`, summed tile by tile (32 tiles of 256 rows against all 8192
    columns), each tile contributing `hh · 2^-26 + ll · 2^-26 + hl · (-2^-25)`, the contributions added one after
    the other onto zero.

  The float literals stay the words the programs print; `Cert.MMD` states no law here (the law that joins the two
  forms on finite inputs is a module of its own).
-/
import Idealize.ShloMosaic.PureOps.Ideal
import Idealize.ShloMosaic.Lib.ValueIdx

noncomputable section

open scoped BigOperators

namespace Cert.MMD

open Idealize.ShloMosaic Idealize.ShloMosaic.ValueIdx

/-- The arrays' shape: 8192 rows of 256 entries. -/
abbrev SA : Shape := ⟨2, ![8192, 256]⟩

/-- The literals, as the words both programs print: `2`, `½`, `0`, `2^-26`, `-2^-25`, `2^26`. -/
def c2 : EReal := Ideal.ofBits .f32 0x40000000#32
def cHalf : EReal := Ideal.ofBits .f32 0x3F000000#32
def c0 : EReal := Ideal.ofBits .f32 0x00000000#32
def cInv : EReal := Ideal.ofBits .f32 0x32800000#32
def cNegInv2 : EReal := Ideal.ofBits .f32 0xB3000000#32
def cNN : EReal := Ideal.ofBits .f32 0x4C800000#32

/-- The gated features: the entrywise product. -/
def gate (x g : SA.Idx → EReal) : SA.Idx → EReal := fun i => x i * g i

/-- The squared length of row `r`. -/
def sqn (a : SA.Idx → EReal) (r : Fin 8192) : EReal := ∑ d : Fin 256, a (ix2 r d) * a (ix2 r d)

/-- The inner product of row `r` of `a` with row `s` of `b`. -/
def dot (a b : SA.Idx → EReal) (r s : Fin 8192) : EReal := ∑ d : Fin 256, a (ix2 r d) * b (ix2 s d)

/-- The squared distance between row `r` of `a` and row `s` of `b`, expanded. -/
def dist (a b : SA.Idx → EReal) (r s : Fin 8192) : EReal := sqn a r + sqn b s - c2 * dot a b r s

/-! ## The reference's form -/

/-- One entry: `exp (-dist / 2)`. -/
def kRef (a b : SA.Idx → EReal) (r s : Fin 8192) : EReal := Ideal.exp (Ideal.div (-(dist a b r s)) c2)

/-- All pairs. -/
def sumRef (a b : SA.Idx → EReal) : EReal := ∑ r : Fin 8192, ∑ s : Fin 8192, kRef a b r s

/-- `hh / 2^26 + ll / 2^26 - (2 · hl) / 2^26`. -/
def refG (x y g : SA.Idx → EReal) : EReal :=
  (Ideal.div (sumRef (gate x g) (gate x g)) cNN + Ideal.div (sumRef (gate y g) (gate y g)) cNN)
    - Ideal.div (c2 * sumRef (gate x g) (gate y g)) cNN

/-! ## The kernel's form -/

/-- Row `p` of tile `t`: row `256 t + p` of the array. -/
def row (t : Fin 32) (p : Fin 256) : Fin 8192 := ⟨256 * t.val + p.val, by have := t.isLt; have := p.isLt; omega⟩

/-- One entry: `exp ((0 - dist) · ½)`. -/
def kKer (a b : SA.Idx → EReal) (r s : Fin 8192) : EReal := Ideal.exp ((c0 - dist a b r s) * cHalf)

/-- One tile's rows against all columns. -/
def tileSum (a b : SA.Idx → EReal) (t : Fin 32) : EReal := ∑ p : Fin 256, ∑ s : Fin 8192, kKer a b (row t p) s

/-- One tile's contribution: `(hh · 2^-26 + ll · 2^-26) + hl · (-2^-25)`. -/
def contrib (a b : SA.Idx → EReal) (t : Fin 32) : EReal :=
  (tileSum a a t * cInv + tileSum b b t * cInv) + tileSum a b t * cNegInv2

/-- The contribution of tile `n`, `0` past the last. -/
def contribN (a b : SA.Idx → EReal) (n : ℕ) : EReal := if h : n < 32 then contrib a b ⟨n, h⟩ else 0

/-- The accumulator after tile `n`: zero plus the first contribution, then one contribution at a time. -/
def kerAcc (a b : SA.Idx → EReal) : ℕ → EReal
  | 0 => c0 + contribN a b 0
  | n + 1 => kerAcc a b n + contribN a b (n + 1)

/-- The accumulator after the last tile. -/
def kerG (x y g : SA.Idx → EReal) : EReal := kerAcc (gate x g) (gate y g) 31

/-- Every entry of an array is a real number. -/
def Fin_ (x : SA.Idx → EReal) : Prop := ∀ i, ∃ v : ℝ, x i = (v : EReal)

end Cert.MMD

end
-- ==== Proof.KI.GateValue.lean ====
/-
  REGION 0 (the gating call) read as whole arrays at the exact instance. With `a = x · g` and `b = y · g` entrywise
  (`x`, `y` the two feature arrays and `g` the gate array as the region finds them), the region leaves in its four
  output arrays `a`, `b`, and the columns of the rows' squared lengths `sqn a r`, `sqn b r`.

  Each grid point `t` of the 8 handles rows `1024 t … 1024 t + 1023`: every window's block index at `t` is `(t, 0)`.
  The body's payloads are read at an index (an entrywise product; a row sum of squares of that product, stored as a
  column), the block a point writes back is then the block of the whole-array function at that point, and the 8 blocks
  tile the array: row `r` lies in the block of point `r / 1024`.
-/
import proofs.«180728_j75256416960849_1_alg».proof.Proof.KI.GateBody
import proofs.«180728_j75256416960849_1_alg».proof.Proof.Spec
import Idealize.ShloMosaic.Lib.Pipeline.Value
import Idealize.ShloMosaic.Lib.ValueIdx
import Idealize.ShloMosaic.PureOps.Ideal.Laws

-- membership in a rectangle of 1024 rows: the structural look recurses once per coordinate of the long axis
set_option maxRecDepth 16384

noncomputable section

open scoped BigOperators

namespace Cert.KernelIdeal.Frm

open Cert.KernelIdeal Cert.KernelIdeal.Gen
open Idealize.ShloMosaic Idealize.ShloMosaic.TcCoe Idealize.SL.Sem Idealize.ShloMosaic.ValueIdx
open Idealize.ShloMosaic.Pipeline (Dat)
open Cert.MMD

/-! ## The payloads at an index -/

/-- The gated block's entry: the feature entry times the gate entry (the narrowing is the identity here). -/
theorem pay3_apply (v0 v1 : Vec Ideal S1024x256 .f32) (j : S1024x256.Idx) :
    k0_pay3 (F := Ideal) v0 v1 j = v1 j * v0 j := rfl

/-- The same for the second feature block. -/
theorem pay4_apply (v0 v3 : Vec Ideal S1024x256 .f32) (j : S1024x256.Idx) :
    k0_pay4 (F := Ideal) v0 v3 j = v3 j * v0 j := rfl

/-- The column of row sums of squares of the gated block, at row `r`. -/
theorem pay5_apply (v0 v1 : Vec Ideal S1024x256 .f32) (r : Fin 1024) (z : Fin 1) :
    k0_pay5 (F := Ideal) v0 v1 (ix2 r z)
      = ∑ d : Fin 256, (v1 (ix2 r d) * v0 (ix2 r d)) * (v1 (ix2 r d) * v0 (ix2 r d)) := by
  unfold k0_pay5
  refine (shapeCast_apply _ shapeCasts_S1024_S1024x1 (ix2 r z) (ix1 r) ?_).trans ?_
  · rw [Shape.rowMajor_val_one, Shape.rowMajor_val_two]
    show r.val = r.val * 1 + z.val
    omega
  · refine (Ideal.multiReduction_add_single _ _ reduces_S1024x256_S1024 _ _ (ix1 r)).trans ?_
    show ∑ d : Fin 256, (mulf (k0_pay1 (F := Ideal) v0 v1) (k0_pay1 (F := Ideal) v0 v1)) (reduces_S1024x256_S1024.lift (ix1 r) d) = _
    refine Finset.sum_congr rfl fun d _ => ?_
    have e : reduces_S1024x256_S1024.lift (ix1 r) d = ix2 r d :=
      funext fun a => Fin.ext (by match a with | ⟨0, _⟩ => rfl | ⟨1, _⟩ => rfl)
    rw [e]
    rfl

/-- The same for the second feature block. -/
theorem pay6_apply (v0 v3 : Vec Ideal S1024x256 .f32) (r : Fin 1024) (z : Fin 1) :
    k0_pay6 (F := Ideal) v0 v3 (ix2 r z)
      = ∑ d : Fin 256, (v3 (ix2 r d) * v0 (ix2 r d)) * (v3 (ix2 r d) * v0 (ix2 r d)) := by
  unfold k0_pay6
  refine (shapeCast_apply _ shapeCasts_S1024_S1024x1 (ix2 r z) (ix1 r) ?_).trans ?_
  · rw [Shape.rowMajor_val_one, Shape.rowMajor_val_two]
    show r.val = r.val * 1 + z.val
    omega
  · refine (Ideal.multiReduction_add_single _ _ reduces_S1024x256_S1024 _ _ (ix1 r)).trans ?_
    show ∑ d : Fin 256, (mulf (k0_pay2 (F := Ideal) v0 v3) (k0_pay2 (F := Ideal) v0 v3)) (reduces_S1024x256_S1024.lift (ix1 r) d) = _
    refine Finset.sum_congr rfl fun d _ => ?_
    have e : reduces_S1024x256_S1024.lift (ix1 r) d = ix2 r d :=
      funext fun a => Fin.ext (by match a with | ⟨0, _⟩ => rfl | ⟨1, _⟩ => rfl)
    rw [e]
    rfl

/-! ## The index maps over the grid -/

theorem hz : (![0, 0] : Fin 2 → Nat) = fun _ => 0 := funext fun a => by fin_cases a <;> rfl

/-- Every window's block index at point `t` is `(t, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section GateValue
-- the TensorCore's buffer contents when the region is entered
variable (V : (c : Dev nD) → (b : Ref sig .tc) → Buf (Elt Ideal) ((c : Thread nD τ).loc b))

/-- The first feature array as the region finds it. -/
abbrev arr0 (c : Dev nD) : SA.Idx → EReal := V c main_arg0
/-- The second feature array as the region finds it. -/
abbrev arr1 (c : Dev nD) : SA.Idx → EReal := V c main_arg1
/-- The gate array as the region finds it. -/
abbrev arr2 (c : Dev nD) : SA.Idx → EReal := V c main_arg2

/-- The column of the rows' squared lengths of an array. -/
abbrev colSq (a : SA.Idx → EReal) : S8192x1.Idx → EReal := fun i => sqn a ⟨(i 0).val, (i 0).isLt⟩

/-! ## What each point writes back -/

/-- WHAT POINT `t` WRITES BACK to window 3's array is block `t` of the entrywise product of the feature array and the gate array. -/
theorem flushed3_eq (c : Dev nD) (t : Fin cfg0.N) :
    (dat0 (F := Ideal) V c).flushed 3 t
      = ((cfg0.win 3).blk t).view.read (Elt Ideal) (gate (V c main_arg0) (V c main_arg2)) := by
  show (cfg0.win 3).cut (grid0.coords t) ((dat0 V c).after 3 t) = _
  rw [after0_3]
  unfold out0_3
  rw [View.canon_unit_zero hz]
  simp only [View.ld_unit_zero (S := S1024x256) hz]
  obtain ⟨a0, b0, a1, b1, a2, b2, a3, b3, a4, b4, a5, b5, a6, b6⟩ := idx_facts0 t
  funext j
  show arr0 V c (((cfg0.win 0).blk t).view.emb j) * arr2 V c (((cfg0.win 2).blk t).view.emb j)
    = arr0 V c (((cfg0.win 3).blk t).view.emb j) * arr2 V c (((cfg0.win 3).blk t).view.emb j)
  have hf : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 256 + 1 * (j 1).val = win0_3.index t (1 : Fin 2) * 256 + 1 * (j 1).val; omega
  have hg : ((cfg0.win 2).blk t).view.emb j = ((cfg0.win 3).blk t).view.emb j := by
    funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 256 + 1 * (j 1).val = win0_3.index t (1 : Fin 2) * 256 + 1 * (j 1).val; omega
  rw [hf, hg]

/-- WHAT POINT `t` WRITES BACK to window 4's array is block `t` of the entrywise product of the feature array and the gate array. -/
theorem flushed4_eq (c : Dev nD) (t : Fin cfg0.N) :
    (dat0 (F := Ideal) V c).flushed 4 t
      = ((cfg0.win 4).blk t).view.read (Elt Ideal) (gate (V c main_arg1) (V c main_arg2)) := by
  show (cfg0.win 4).cut (grid0.coords t) ((dat0 V c).after 4 t) = _
  rw [after0_4]
  unfold out0_4
  rw [View.canon_unit_zero hz]
  simp only [View.ld_unit_zero (S := S1024x256) hz]
  obtain ⟨a0, b0, a1, b1, a2, b2, a3, b3, a4, b4, a5, b5, a6, b6⟩ := idx_facts0 t
  funext j
  show arr1 V c (((cfg0.win 1).blk t).view.emb j) * arr2 V c (((cfg0.win 2).blk t).view.emb j)
    = arr1 V c (((cfg0.win 4).blk t).view.emb j) * arr2 V c (((cfg0.win 4).blk t).view.emb j)
  have hf : ((cfg0.win 1).blk t).view.emb j = ((cfg0.win 4).blk t).view.emb j := by
    funext a; apply Fin.ext
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 256 + 1 * (j 1).val = win0_4.index t (1 : Fin 2) * 256 + 1 * (j 1).val; omega
  have hg : ((cfg0.win 2).blk t).view.emb j = ((cfg0.win 4).blk t).view.emb j := by
    funext a; apply Fin.ext
    match a with
    | ⟨0, _⟩ => show win0_2.index t (0 : Fin 2) * 1024 + 1 * (j 0).val = win0_4.index t (0 : Fin 2) * 1024 + 1 * (j 0).val; omega
    | ⟨1, _⟩ => show win0_2.index t (1 : Fin 2) * 256 + 1 * (j 1).val = win0_4.index t (1 : Fin 2) * 256 + 1 * (j 1).val; omega
  rw [hf, hg]

/-- WHAT POINT `t` WRITES BACK to window 5's array is block `t` of the column of the rows' squared lengths. -/
theorem flushed5_eq (c : Dev nD) (t : Fin cfg0.N) :
    (dat0 (F := Ideal) V c).flushed 5 t
      = ((cfg0.win 5).blk t).view.read (Elt Ideal) (colSq (gate (V c main_arg0) (V c main_arg2))) := by
  show (cfg0.win 5).cut (grid0.coords t) ((dat0 V c).after 5 t) = _
  rw [after0_5]
  unfold out0_5
  rw [View.canon_unit_zero hz]
  simp only [View.ld_unit_zero (S := S1024x256) hz]
  obtain ⟨a0, b0, a1, b1, a2, b2, a3, b3, a4, b4, a5, b5, a6, b6⟩ := idx_facts0 t
  funext j
  obtain ⟨r, z, rfl⟩ : ∃ (r : Fin 1024) (z : Fin 1), j = ix2 r z := ⟨j 0, j 1, eq_ix2 j⟩
  show k0_pay5 (F := Ideal) (iblk0 V c 2 t) (iblk0 V c 0 t) (ix2 r z)
    = sqn (gate (V c main_arg0) (V c main_arg2))
        ⟨(((cfg0.win 5).blk t).view.emb (ix2 r z) 0).val, (((cfg0.win 5).blk t).view.emb (ix2 r z) 0).isLt⟩
  refine (pay5_apply (iblk0 V c 2 t) (iblk0 V c 0 t) r z).trans ?_
  unfold Cert.MMD.sqn Cert.MMD.gate
  refine Finset.sum_congr rfl fun d _ => ?_
  have hf : ((cfg0.win 0).blk t).view.emb (ix2 r d)
      = ix2 ⟨(((cfg0.win 5).blk t).view.emb (ix2 r z) 0).val, (((cfg0.win 5).blk t).view.emb (ix2 r z) 0).isLt⟩ d := by
    funext a; apply Fin.ext
    match a with
    | ⟨0, _⟩ => show win0_0.index t (0 : Fin 2) * 1024 + 1 * r.val = win0_5.index t (0 : Fin 2) * 1024 + 1 * r.val; omega
    | ⟨1, _⟩ => show win0_0.index t (1 : Fin 2) * 256 + 1 * d.val = d.val; omega
  have hg : ((cfg0.win 2).blk t).view.emb (ix2 r d)
      = ix2 ⟨(((cfg0.win 5).blk t).view.emb (ix2 r z) 0).val, (((cfg0.win 5).blk t).view.emb (ix2 r z) 0).isLt⟩ d := by
    funext a; apply Fin.ext
    match a with
    | ⟨0, _⟩ => show win0_2.index t (0 : Fin 2) * 1024 + 1 * r.val = win0_5.index t (0 : Fin 2) * 1024 + 1 * r.val; omega
    | ⟨1, _⟩ => show win0_2.index t (1 : Fin 2) * 256 + 1 * d.val = d.val; omega
  show (arr0 V c (((cfg0.win 0).blk t).view.emb (ix2 r d)) * arr2 V c (((cfg0.win 2).blk t).view.emb (ix2 r d)))
      * (arr0 V c (((cfg0.win 0).blk t).view.emb (ix2 r d)) * arr2 V c (((cfg0.win 2).blk t).view.emb (ix2 r d))) = _
  rw [hf, hg]
  rfl

/-- WHAT POINT `t` WRITES BACK to window 6's array is block `t` of the column of the rows' squared lengths. -/
theorem flushed6_eq (c : Dev nD) (t : Fin cfg0.N) :
    (dat0 (F := Ideal) V c).flushed 6 t
      = ((cfg0.win 6).blk t).view.read (Elt Ideal) (colSq (gate (V c main_arg1) (V c main_arg2))) := by
  show (cfg0.win 6).cut (grid0.coords t) ((dat0 V c).after 6 t) = _
  rw [after0_6]
  unfold out0_6
  rw [View.canon_unit_zero hz]
  simp only [View.ld_unit_zero (S := S1024x256) hz]
  obtain ⟨a0, b0, a1, b1, a2, b2, a3, b3, a4, b4, a5, b5, a6, b6⟩ := idx_facts0 t
  funext j
  obtain ⟨r, z, rfl⟩ : ∃ (r : Fin 1024) (z : Fin 1), j = ix2 r z := ⟨j 0, j 1, eq_ix2 j⟩
  show k0_pay6 (F := Ideal) (iblk0 V c 2 t) (iblk0 V c 1 t) (ix2 r z)
    = sqn (gate (V c main_arg1) (V c main_arg2))
        ⟨(((cfg0.win 6).blk t).view.emb (ix2 r z) 0).val, (((cfg0.win 6).blk t).view.emb (ix2 r z) 0).isLt⟩
  refine (pay6_apply (iblk0 V c 2 t) (iblk0 V c 1 t) r z).trans ?_
  unfold Cert.MMD.sqn Cert.MMD.gate
  refine Finset.sum_congr rfl fun d _ => ?_
  have hf : ((cfg0.win 1).blk t).view.emb (ix2 r d)
      = ix2 ⟨(((cfg0.win 6).blk t).view.emb (ix2 r z) 0).val, (((cfg0.win 6).blk t).view.emb (ix2 r z) 0).isLt⟩ d := by
    funext a; apply Fin.ext
    match a with
    | ⟨0, _⟩ => show win0_1.index t (0 : Fin 2) * 1024 + 1 * r.val = win0_6.index t (0 : Fin 2) * 1024 + 1 * r.val; omega
    | ⟨1, _⟩ => show win0_1.index t (1 : Fin 2) * 256 + 1 * d.val = d.val; omega
  have hg : ((cfg0.win 2).blk t).view.emb (ix2 r d)
      = ix2 ⟨(((cfg0.win 6).blk t).view.emb (ix2 r z) 0).val, (((cfg0.win 6).blk t).view.emb (ix2 r z) 0).isLt⟩ d := by
    funext a; apply Fin.ext
    match a with
    | ⟨0, _⟩ => show win0_2.index t (0 : Fin 2) * 1024 + 1 * r.val = win0_6.index t (0 : Fin 2) * 1024 + 1 * r.val; omega
    | ⟨1, _⟩ => show win0_2.index t (1 : Fin 2) * 256 + 1 * d.val = d.val; omega
  show (arr1 V c (((cfg0.win 1).blk t).view.emb (ix2 r d)) * arr2 V c (((cfg0.win 2).blk t).view.emb (ix2 r d)))
      * (arr1 V c (((cfg0.win 1).blk t).view.emb (ix2 r d)) * arr2 V c (((cfg0.win 2).blk t).view.emb (ix2 r d))) = _
  rw [hf, hg]
  rfl

/-! ## The blocks tile the arrays -/

/-- An index of the array is in point `t`'s block iff each coordinate is in the block's range on its axis. -/
theorem mem_blk3 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_0).slice (win0_3.rect t)).set ↔ _
  rw [View.set_slice_whole, Rect.mem_set_unit]
  exact Iff.rfl

/-- The blocks tile the array: row `r` lies in the block of point `r / 1024`. -/
theorem cover3 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  obtain ⟨a0, b0, a1, b1, a2, b2, a3, b3, a4, b4, a5, b5, a6, b6⟩ := idx_facts0 t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- An index of the array is in point `t`'s block iff each coordinate is in the block's range on its axis. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v0_1).slice (win0_4.rect t)).set ↔ _
  rw [View.set_slice_whole, Rect.mem_set_unit]
  exact Iff.rfl

/-- The blocks tile the array: row `r` lies in the block of point `r / 1024`. -/
theorem cover4 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  obtain ⟨a0, b0, a1, b1, a2, b2, a3, b3, a4, b4, a5, b5, a6, b6⟩ := idx_facts0 t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- An index of the array is in point `t`'s block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_2).slice (win0_5.rect t)).set ↔ _
  rw [View.set_slice_whole, Rect.mem_set_unit]
  exact Iff.rfl

/-- The blocks tile the array: row `r` lies in the block of point `r / 1024`. -/
theorem cover5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  obtain ⟨a0, b0, a1, b1, a2, b2, a3, b3, a4, b4, a5, b5, a6, b6⟩ := idx_facts0 t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- An index of the array is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0_3).slice (win0_6.rect t)).set ↔ _
  rw [View.set_slice_whole, Rect.mem_set_unit]
  exact Iff.rfl

/-- The blocks tile the array: row `r` lies in the block of point `r / 1024`. -/
theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  obtain ⟨a0, b0, a1, b1, a2, b2, a3, b3, a4, b4, a5, b5, a6, b6⟩ := idx_facts0 t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-! ## The four arrays after the region -/

/-- The first output array ends holding the gated first feature array. -/
theorem gate_arr3 (c : Dev nD) :
    ((dat0 (F := Ideal) V c).arrAt 3 cfg0.N : S8192x256.Idx → EReal) = gate (V c main_arg0) (V c main_arg2) :=
  (dat0 (F := Ideal) V c).arrAt_eq_of_cover 3 (gate (V c main_arg0) (V c main_arg2)) (fun t _ => flushed3_eq V c t) cover3

/-- The second output array ends holding the gated second feature array. -/
theorem gate_arr4 (c : Dev nD) :
    ((dat0 (F := Ideal) V c).arrAt 4 cfg0.N : S8192x256.Idx → EReal) = gate (V c main_arg1) (V c main_arg2) :=
  (dat0 (F := Ideal) V c).arrAt_eq_of_cover 4 (gate (V c main_arg1) (V c main_arg2)) (fun t _ => flushed4_eq V c t) cover4

/-- The third output array ends holding the column of the squared lengths of the gated first feature array's rows. -/
theorem gate_arr5 (c : Dev nD) :
    ((dat0 (F := Ideal) V c).arrAt 5 cfg0.N : S8192x1.Idx → EReal)
      = fun i => sqn (gate (V c main_arg0) (V c main_arg2)) ⟨(i 0).val, (i 0).isLt⟩ :=
  (dat0 (F := Ideal) V c).arrAt_eq_of_cover 5 (colSq (gate (V c main_arg0) (V c main_arg2))) (fun t _ => flushed5_eq V c t) cover5

/-- The fourth output array ends holding the column of the squared lengths of the gated second feature array's rows. -/
theorem gate_arr6 (c : Dev nD) :
    ((dat0 (F := Ideal) V c).arrAt 6 cfg0.N : S8192x1.Idx → EReal)
      = fun i => sqn (gate (V c main_arg1) (V c main_arg2)) ⟨(i 0).val, (i 0).isLt⟩ :=
  (dat0 (F := Ideal) V c).arrAt_eq_of_cover 6 (colSq (gate (V c main_arg1) (V c main_arg2))) (fun t _ => flushed6_eq V c t) cover6

end GateValue

end Cert.KernelIdeal.Frm

end
-- ==== Proof.KI.PairMath.lean ====
/-
  One grid point of the pairwise kernel, read at an index over the extended reals.

  For a tile of 256 rows `lhs` with squared lengths `xn` (a column) against all 8192 rows `rhs` with squared lengths
  `yn` (a row), the kernel forms, at row `p` and column `s`, the entry
  `exp ((0 - ((xn p + yn s) - 2 · ∑ d, lhs (p, d) · rhs (s, d))) · ½)`: the contraction of the two operands over their
  second axes, the column of squared lengths repeated along the rows' columns and the row of squared lengths repeated
  along the rows, and the elementwise arithmetic. It then sums the entries of each row, and the 256 row sums, and scales
  the totals by `2^-26` or `-2^-25`. The statements below read each of these values at an index given by coordinates.
-/
import proofs.«180728_j75256416960849_1_alg».proof.Proof.Gen.KernelIdeal.Skeleton
import proofs.«180728_j75256416960849_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PairMath

open Cert.KernelIdeal Cert.KernelIdeal.Gen Idealize.ShloMosaic Idealize.ShloMosaic.ValueIdx Cert.MMD
open Cert.KernelIdeal.Facts₀ Cert.KernelIdeal.Facts

local notation "DD" => dot_S256x256_S8192x256_S256x8192_1_1_0_0_n_n

/-- One entry: `exp ((0 - ((xn p + yn s) - 2 · ∑ d, lhs (p, d) · rhs (s, d))) · ½)`. -/
def ent (lhs : FVec Ideal S256x256 .bf16) (xn : FVec Ideal S256x1 .f32) (rhs : FVec Ideal S8192x256 .bf16)
    (yn : FVec Ideal S1x8192 .f32) (p : Fin 256) (s : Fin 8192) : EReal :=
  Ideal.exp ((c0 - ((xn (ix2 p (0 : Fin 1)) + yn (ix2 (0 : Fin 1) s)) - c2 * ∑ d : Fin 256, lhs (ix2 p d) * rhs (ix2 s d))) * cHalf)

/-! ## The contraction at an index -/

/-- The left operand's row coordinate is the output's row coordinate. -/
theorem lhs_0 (i : S256x8192.Idx) (q : (DD).contr.Idx) : ((DD).lhsIdx i q 0).val = (i 0).val := by
  unfold DotDims.lhsIdx
  rw [dif_neg (show ¬(0 : Fin S256x256.rank) ∈ (DD).lhsBatch by decide),
    dif_pos (show (0 : Fin S256x256.rank) ∈ (DD).lhsNonContracting by decide)]
  rfl

/-- The left operand's column coordinate is the contraction coordinate. -/
theorem lhs_1 (i : S256x8192.Idx) (q : (DD).contr.Idx) : ((DD).lhsIdx i q 1).val = (q ⟨0, by decide⟩).val :=
  (DD).lhsIdx_val_of_single rfl i q

/-- The right operand's row coordinate is the output's column coordinate. -/
theorem rhs_0 (i : S256x8192.Idx) (q : (DD).contr.Idx) : ((DD).rhsIdx i q 0).val = (i 1).val := by
  unfold DotDims.rhsIdx
  rw [dif_neg (show ¬(0 : Fin S8192x256.rank) ∈ (DD).rhsBatch by decide),
    dif_pos (show (0 : Fin S8192x256.rank) ∈ (DD).rhsNonContracting by decide)]
  rfl

/-- The right operand's column coordinate is the contraction coordinate. -/
theorem rhs_1 (i : S256x8192.Idx) (q : (DD).contr.Idx) : ((DD).rhsIdx i q 1).val = (q ⟨0, by decide⟩).val :=
  (DD).rhsIdx_val_of_single rfl i q

/-- The contraction onto zero at `(p, s)`: `∑ d, lhs (p, d) · rhs (s, d)`. -/
theorem matmul_at (lhs : FVec Ideal S256x256 .bf16) (rhs : FVec Ideal S8192x256 .bf16) (p : Fin 256) (s : Fin 8192) :
    matmul DD none lhs rhs (constant S256x8192 .f32 0x00000000#32) (ix2 p s)
      = ∑ d : Fin 256, lhs (ix2 p d) * rhs (ix2 s d) := by
  refine (Ideal.matmul_constant_zero_apply _ _ lhs rhs _).trans ?_
  rw [← Equiv.sum_comp (ValueIdx.contrEquiv1 DD 256 rfl rfl).symm]
  refine Finset.sum_congr rfl fun k _ => ?_
  have hk := ValueIdx.contrEquiv1_symm_val DD 256 rfl rfl k
  have el : (DD).lhsIdx (ix2 p s) ((ValueIdx.contrEquiv1 DD 256 rfl rfl).symm k) = ix2 p k :=
    funext fun a => Fin.ext (by
      match a with
      | ⟨0, _⟩ => exact lhs_0 _ _
      | ⟨1, _⟩ => exact (lhs_1 _ _).trans hk)
  have er : (DD).rhsIdx (ix2 p s) ((ValueIdx.contrEquiv1 DD 256 rfl rfl).symm k) = ix2 s k :=
    funext fun a => Fin.ext (by
      match a with
      | ⟨0, _⟩ => exact rhs_0 _ _
      | ⟨1, _⟩ => exact (rhs_1 _ _).trans hk)
  rw [el, er]

/-! ## Broadcasts, reductions and casts at an index -/

/-- A column `[a, 1]` repeated along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The sum along the columns at row `p`. -/
theorem rowsum_apply (src : FVec Ideal S256x8192 .f32) (h : S256x8192.Reduces [1] S256) (hφ : FKind.Formats .f32)
    (hacc : (0x00000000#32 : BitVec 32) = FKind.add.neutral .f32 hφ) (p : Fin 256) :
    multiReduction .add [1] S256 src 0x00000000#32 h hφ hacc (ix1 p) = ∑ s : Fin 8192, src (ix2 p s) := by
  refine (Ideal.multiReduction_add_single src _ h hφ hacc (ix1 p)).trans ?_
  exact Finset.sum_congr rfl fun k _ => congrArg src (funext fun a => Fin.ext (by
    match a with
    | ⟨0, _⟩ => rfl
    | ⟨1, _⟩ => rfl))

/-- The sum of a column. -/
theorem colsum_apply (src : FVec Ideal S256x1 .f32) (h : S256x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ p : Fin 256, src (ix2 p (0 : Fin 1)) := by
  refine (Ideal.multiReduction_add_single src _ h hφ hacc (ix1 (0 : Fin 1))).trans ?_
  exact Finset.sum_congr rfl fun k _ => congrArg src (funext fun a => Fin.ext (by
    match a with
    | ⟨0, _⟩ => rfl
    | ⟨1, _⟩ => rfl))

/-! ## The tile of entries, its row sums and a column's total -/

/-- The tile of entries as the kernel forms it: contraction, the two repeated squared lengths, the arithmetic, the
    exponential. -/
def tile (lhs : FVec Ideal S256x256 .bf16) (xn : FVec Ideal S256x1 .f32) (rhs : FVec Ideal S8192x256 .bf16)
    (yn : FVec Ideal S1x8192 .f32) : FVec Ideal S256x8192 .f32 :=
  have mm : FVec Ideal S256x8192 .f32 := matmul DD none lhs rhs (constant S256x8192 .f32 0x00000000#32)
  have sq : FVec Ideal S256x8192 .f32 :=
    addf (broadcastTo S256x8192 xn Gen.broadcasts_S256x1_S256x8192) (broadcastTo S256x8192 yn Gen.broadcasts_S1x8192_S256x8192)
  have ds : FVec Ideal S256x8192 .f32 := subf sq (mulf (broadcast S256x8192 (Scalar.ofBits .f32 0x40000000#32)) mm)
  exp (mulf (subf (broadcast S256x8192 (Scalar.ofBits .f32 0x00000000#32)) ds)
    (broadcast S256x8192 (Scalar.ofBits .f32 0x3F000000#32)))

/-- The tile at `(p, s)` is the entry. -/
theorem tile_apply (lhs : FVec Ideal S256x256 .bf16) (xn : FVec Ideal S256x1 .f32) (rhs : FVec Ideal S8192x256 .bf16)
    (yn : FVec Ideal S1x8192 .f32) (p : Fin 256) (s : Fin 8192) : tile lhs xn rhs yn (ix2 p s) = ent lhs xn rhs yn p s := by
  have e1 := broadcastTo_a1_ab_apply xn Gen.broadcasts_S256x1_S256x8192 p s
  have e2 := broadcastTo_1b_ab_apply yn Gen.broadcasts_S1x8192_S256x8192 p s
  have e3 := matmul_at lhs rhs p s
  show Ideal.exp ((Ideal.ofBits .f32 0x00000000#32
      - ((broadcastTo S256x8192 xn Gen.broadcasts_S256x1_S256x8192 (ix2 p s)
          + broadcastTo S256x8192 yn Gen.broadcasts_S1x8192_S256x8192 (ix2 p s))
        - Ideal.ofBits .f32 0x40000000#32
          * matmul DD none lhs rhs (constant S256x8192 .f32 0x00000000#32) (ix2 p s)))
      * Ideal.ofBits .f32 0x3F000000#32) = _
  rw [e1, e2, e3]
  rfl

/-- The row sums of the tile, as a column. -/
def rows (lhs : FVec Ideal S256x256 .bf16) (xn : FVec Ideal S256x1 .f32) (rhs : FVec Ideal S8192x256 .bf16)
    (yn : FVec Ideal S1x8192 .f32) : FVec Ideal S256x1 .f32 :=
  shapeCast S256x1 (multiReduction .add [1] S256 (tile lhs xn rhs yn) 0x00000000#32 Gen.reduces_S256x8192_S256 (.inl rfl) rfl)
    Gen.shapeCasts_S256_S256x1

theorem rows_apply (lhs : FVec Ideal S256x256 .bf16) (xn : FVec Ideal S256x1 .f32) (rhs : FVec Ideal S8192x256 .bf16)
    (yn : FVec Ideal S1x8192 .f32) (p : Fin 256) :
    rows lhs xn rhs yn (ix2 p (0 : Fin 1)) = ∑ s : Fin 8192, ent lhs xn rhs yn p s := by
  refine (shapeCast_a_a1_apply _ Gen.shapeCasts_S256_S256x1 p (0 : Fin 1)).trans ?_
  refine (rowsum_apply (tile lhs xn rhs yn) Gen.reduces_S256x8192_S256 (.inl rfl) rfl p).trans ?_
  exact Finset.sum_congr rfl fun s _ => tile_apply lhs xn rhs yn p s

/-- The total of a column, as a `[1, 1]` array. -/
def tot (v : FVec Ideal S256x1 .f32) : FVec Ideal S1x1 .f32 :=
  shapeCast S1x1 (multiReduction .add [0] S1 v 0x00000000#32 Gen.reduces_S256x1_S1 (.inl rfl) rfl) Gen.shapeCasts_S1_S1x1

theorem tot_apply (v : FVec Ideal S256x1 .f32) :
    tot v (ix2 (0 : Fin 1) (0 : Fin 1)) = ∑ p : Fin 256, v (ix2 p (0 : Fin 1)) := by
  refine (shapeCast_a_a1_apply _ Gen.shapeCasts_S1_S1x1 (0 : Fin 1) (0 : Fin 1)).trans ?_
  exact colsum_apply v Gen.reduces_S256x1_S1 (.inl rfl) rfl

/-! ## The same-shape casts -/

theorem pay5_eq (v : Vec Ideal S256x256 .bf16) : k1_pay5 (F := Ideal) v = v := shapeCast_self v _
theorem pay6_eq (v : Vec Ideal S256x256 .bf16) : k1_pay6 (F := Ideal) v = v := shapeCast_self v _
theorem pay7_eq (v : Vec Ideal S256x1 .f32) : k1_pay7 (F := Ideal) v = v := shapeCast_self v _
theorem pay8_eq (v : Vec Ideal S256x1 .f32) : k1_pay8 (F := Ideal) v = v := shapeCast_self v _
theorem pay9_eq (v : Vec Ideal S8192x256 .bf16) : k1_pay9 (F := Ideal) v = v := shapeCast_self v _
theorem pay11_eq (v : Vec Ideal S1x1 .f32) : k1_pay11 (F := Ideal) v = v := shapeCast_self v _

/-! ## The payloads at an index -/

/-- The row sums of the first tile. -/
theorem pay10_apply (v6 : Vec Ideal S256x256 .bf16) (v12 : Vec Ideal S256x1 .f32) (v17 : Vec Ideal S8192x256 .bf16)
    (v21 : Vec Ideal S1x8192 .f32) (p : Fin 256) :
    k1_pay10 (F := Ideal) v6 v12 v17 v21 (ix2 p (0 : Fin 1)) = ∑ s : Fin 8192, ent v6 v12 v17 v21 p s := by
  have e : k1_pay10 (F := Ideal) v6 v12 v17 v21
      = rows (k1_pay5 v6) (k1_pay7 v12) (shapeCast S8192x256 v17 Gen.shapeCasts_S8192x256_S8192x256) v21 := rfl
  rw [e, pay5_eq, pay7_eq, shapeCast_self]
  exact rows_apply v6 v12 v17 v21 p

/-- The first two scaled totals. -/
theorem pay12_apply (v10 : FVec Ideal S256x256 .bf16) (v16 : FVec Ideal S256x1 .f32) (v20 : FVec Ideal S8192x256 .bf16)
    (v22 : Vec Ideal S1x8192 .f32) (v36 : FVec Ideal S256x1 .f32) :
    k1_pay12 (F := Ideal) v10 v16 v20 v22 v36 (ix2 (0 : Fin 1) (0 : Fin 1))
      = (∑ p : Fin 256, v36 (ix2 p (0 : Fin 1))) * cInv + (∑ p : Fin 256, ∑ s : Fin 8192, ent v10 v16 v20 v22 p s) * cInv := by
  show tot v36 (ix2 (0 : Fin 1) (0 : Fin 1)) * Ideal.ofBits .f32 0x32800000#32
      + tot (rows v10 v16 v20 v22) (ix2 (0 : Fin 1) (0 : Fin 1)) * Ideal.ofBits .f32 0x32800000#32 = _
  rw [tot_apply, tot_apply]
  simp only [rows_apply]
  rfl

/-- The third scaled total. -/
theorem pay13_apply (v7 : FVec Ideal S256x256 .bf16) (v13 : FVec Ideal S256x1 .f32) (v20 : FVec Ideal S8192x256 .bf16)
    (v22 : Vec Ideal S1x8192 .f32) :
    k1_pay13 (F := Ideal) v7 v13 v20 v22 (ix2 (0 : Fin 1) (0 : Fin 1))
      = (∑ p : Fin 256, ∑ s : Fin 8192, ent v7 v13 v20 v22 p s) * cNegInv2 := by
  show tot (rows v7 v13 v20 v22) (ix2 (0 : Fin 1) (0 : Fin 1)) * Ideal.ofBits .f32 0xB3000000#32 = _
  rw [tot_apply]
  simp only [rows_apply]
  rfl

/-- The accumulator's new value. -/
theorem pay1_apply (v72 v77 v79 : FVec Ideal S1x1 .f32) (i : S1x1.Idx) :
    k1_pay1 (F := Ideal) v72 v77 v79 i = v72 i + (v77 i + v79 i) := rfl

/-- The accumulator's first value. -/
theorem pay2_apply (i : S1x1.Idx) : k1_pay2 (F := Ideal) i = c0 := rfl

/-- A column of squared lengths laid out as a row. -/
theorem pay3_apply (v85 : Vec Ideal S8192x1 .f32) (s : Fin 8192) :
    k1_pay3 (F := Ideal) v85 (ix2 (0 : Fin 1) s) = v85 (ix2 s (0 : Fin 1)) := by
  show shapeCast S1x8192 (transpose S1x8192 [1, 0] (shapeCast S8192x1 v85 Gen.shapeCasts_S8192x1_S8192x1)
      Gen.transposes_S8192x1_p1_0_S1x8192) Gen.shapeCasts_S1x8192_S1x8192 (ix2 (0 : Fin 1) s) = _
  rw [shapeCast_self, shapeCast_self]
  exact transpose_ix2_apply v85 _ (0 : Fin 1) s

theorem pay4_apply (v91 : Vec Ideal S8192x1 .f32) (s : Fin 8192) :
    k1_pay4 (F := Ideal) v91 (ix2 (0 : Fin 1) s) = v91 (ix2 s (0 : Fin 1)) := by
  show shapeCast S1x8192 (transpose S1x8192 [1, 0] (shapeCast S8192x1 v91 Gen.shapeCasts_S8192x1_S8192x1)
      Gen.transposes_S8192x1_p1_0_S1x8192) Gen.shapeCasts_S1x8192_S1x8192 (ix2 (0 : Fin 1) s) = _
  rw [shapeCast_self, shapeCast_self]
  exact transpose_ix2_apply v91 _ (0 : Fin 1) s

/-- One grid point: the accumulator plus the three scaled totals of the point's three tiles. -/
theorem point_apply (a : Vec Ideal S1x1 .f32) (v6 v9 : Vec Ideal S256x256 .bf16) (v12 v15 : Vec Ideal S256x1 .f32)
    (v17 v19 : Vec Ideal S8192x256 .bf16) (v21 v22 : Vec Ideal S1x8192 .f32) :
    k1_pay1 (F := Ideal) (k1_pay11 a)
        (k1_pay12 (k1_pay6 v9) (k1_pay8 v15) (k1_pay9 v19) v22 (k1_pay10 v6 v12 v17 v21))
        (k1_pay13 (k1_pay5 v6) (k1_pay7 v12) (k1_pay9 v19) v22) (ix2 (0 : Fin 1) (0 : Fin 1))
      = a (ix2 (0 : Fin 1) (0 : Fin 1))
        + (((∑ p : Fin 256, ∑ s : Fin 8192, ent v6 v12 v17 v21 p s) * cInv
            + (∑ p : Fin 256, ∑ s : Fin 8192, ent v9 v15 v19 v22 p s) * cInv)
          + (∑ p : Fin 256, ∑ s : Fin 8192, ent v6 v12 v19 v22 p s) * cNegInv2) := by
  rw [pay1_apply, pay11_eq, pay6_eq, pay8_eq, pay9_eq, pay5_eq, pay7_eq, pay12_apply, pay13_apply]
  simp only [pay10_apply]

end Cert.KernelIdeal.PairMath

end
-- ==== Proof.KI.PairLink.lean ====
/-
  The entries of one grid point are the entries of the closed form.

  When the tile's operands are the rows `256 t + p` of an array `a` with their squared lengths, and the other operands
  are all rows of an array `b` with theirs, the entry at `(p, s)` is the closed form's entry between row `256 t + p` of
  `a` and row `s` of `b`; so the tile's total is the closed form's tile sum, the three scaled totals are the tile's
  contribution, and the accumulator follows the closed form's recursion.
-/
import proofs.«180728_j75256416960849_1_alg».proof.Proof.KI.PairMath
import proofs.«180728_j75256416960849_1_alg».proof.Proof.Spec

noncomputable section

open scoped BigOperators

namespace Cert.KernelIdeal.PairMath

open Cert.KernelIdeal Cert.KernelIdeal.Gen Idealize.ShloMosaic Idealize.ShloMosaic.ValueIdx Cert.MMD
open Cert.KernelIdeal.Facts₀ Cert.KernelIdeal.Facts

/-- One entry of the tile is the closed form's entry. -/
theorem ent_eq_kKer (a b : SA.Idx → EReal) (t : Fin 32) (lhs : FVec Ideal S256x256 .bf16) (xn : FVec Ideal S256x1 .f32)
    (rhs : FVec Ideal S8192x256 .bf16) (yn : FVec Ideal S1x8192 .f32)
    (hl : ∀ (p : Fin 256) (d : Fin 256), lhs (ix2 p d) = a (ix2 (row t p) d))
    (hx : ∀ p : Fin 256, xn (ix2 p (0 : Fin 1)) = sqn a (row t p))
    (hr : ∀ (s : Fin 8192) (d : Fin 256), rhs (ix2 s d) = b (ix2 s d))
    (hy : ∀ s : Fin 8192, yn (ix2 (0 : Fin 1) s) = sqn b s) (p : Fin 256) (s : Fin 8192) :
    ent lhs xn rhs yn p s = kKer a b (row t p) s := by
  unfold ent Cert.MMD.kKer Cert.MMD.dist Cert.MMD.dot
  rw [hx p, hy s]
  simp only [hl, hr]

/-- The tile's total is the closed form's tile sum. -/
theorem tile_eq (a b : SA.Idx → EReal) (t : Fin 32) (lhs : FVec Ideal S256x256 .bf16) (xn : FVec Ideal S256x1 .f32)
    (rhs : FVec Ideal S8192x256 .bf16) (yn : FVec Ideal S1x8192 .f32)
    (hl : ∀ (p : Fin 256) (d : Fin 256), lhs (ix2 p d) = a (ix2 (row t p) d))
    (hx : ∀ p : Fin 256, xn (ix2 p (0 : Fin 1)) = sqn a (row t p))
    (hr : ∀ (s : Fin 8192) (d : Fin 256), rhs (ix2 s d) = b (ix2 s d))
    (hy : ∀ s : Fin 8192, yn (ix2 (0 : Fin 1) s) = sqn b s) :
    (∑ p : Fin 256, ∑ s : Fin 8192, ent lhs xn rhs yn p s) = tileSum a b t := by
  unfold Cert.MMD.tileSum
  exact Finset.sum_congr rfl fun p _ => Finset.sum_congr rfl fun s _ =>
    ent_eq_kKer a b t lhs xn rhs yn hl hx hr hy p s

/-- The three scaled totals are the tile's contribution. -/
theorem contrib_eq (a b : SA.Idx → EReal) (t : Fin 32) (Taa Tbb Tab : EReal) (haa : Taa = tileSum a a t)
    (hbb : Tbb = tileSum b b t) (hab : Tab = tileSum a b t) :
    (Taa * cInv + Tbb * cInv) + Tab * cNegInv2 = contrib a b t := by
  rw [haa, hbb, hab]
  rfl

/-- The accumulator after the first tile. -/
theorem kerAcc_zero (a b : SA.Idx → EReal) : kerAcc a b 0 = c0 + contrib a b ⟨0, by decide⟩ := by
  rw [kerAcc, contribN, dif_pos (by decide : (0 : ℕ) < 32)]

/-- The accumulator after one more tile. -/
theorem kerAcc_succ (a b : SA.Idx → EReal) (n : ℕ) (h : n + 1 < 32) :
    kerAcc a b (n + 1) = kerAcc a b n + contrib a b ⟨n + 1, h⟩ := by
  rw [kerAcc, contribN, dif_pos h]

end Cert.KernelIdeal.PairMath

end
-- ==== Proof.KI.PairValue.lean ====
/-
  The value of the pairwise region: what the accumulator's array holds after the last grid point.

  At each of the 32 points the body adds to a one-element accumulator the tile's contribution
  `hh · 2^-26 + ll · 2^-26 + hl · (-2^-25)`, where each of `hh, ll, hl` sums `exp ((0 - dist) · ½)` over the tile's 256
  rows against all 8192 rows. The first point also resets the accumulator to zero and stores the two arrays of squared
  row lengths, transposed to rows, into two scratch rows that every later point reads. This module reads the contents
  the frame certificate names — each case's stores as found — as these values, and follows them point by point.
-/
import proofs.«180728_j75256416960849_1_alg».proof.Proof.KI.PairBody
import proofs.«180728_j75256416960849_1_alg».proof.Proof.KI.PairLink
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Frm

open Cert.KernelIdeal Cert.KernelIdeal.Gen

/-! Everything but the final statement lives in a namespace of its own. -/
namespace Pair

section Pieces

variable {F : FTy → Type} [FloatOps F]

theorem hz : (![0, 0] : Fin 2 → Nat) = fun _ => 0 := funext fun a => by fin_cases a <;> rfl

/-- The tile's 256 rows of a whole [8192, 256] block: the load at the tile's offsets. -/
abbrev tileA (i : grid1.Coords) (x : Vec F S8192x256 .bf16) : Vec F S256x256 .bf16 :=
  View.ld x (Rect.unit (s := S8192x256) (k1_off1 i) S256x256.size (k1_off1_inb i))

/-- The tile's 256 entries of a whole [8192, 1] column. -/
abbrev tileN (i : grid1.Coords) (x : Vec F S8192x1 .f32) : Vec F S256x1 .f32 :=
  View.ld x (Rect.unit (s := S8192x1) (k1_off2 i) S256x1.size (k1_off2_inb i))

/-- CASE A's first scratch row: the first column of squared lengths, transposed — its one covering store's payload. -/
theorem sout_A_0 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) :
    sout1_A_0 c i arg1 harg1 arg2 harg2 arg3 harg3 arg4 harg4 arg5 harg5 arg6 harg6 arg7 harg7 hc0 x0 x1 x2 x3 = k1_pay3 x2 := by
  unfold sout1_A_0
  rw [View.read_writes_eq_canon _ _ _ (scover1_A_0 c i arg1 harg1 arg2 harg2 arg3 harg3 arg4 harg4 arg5 harg5 arg6 harg6 arg7 harg7 hc0 x0 x1 x2 x3)]
  unfold kernelRun1_A
  dsimp only
  sl_unfold_words
  rw [View.canon_unit_zero (S := S1x8192) hz]
  simp only [View.readAt_eq_ld, harg3.read_unread, View.ld_unit_zero (S := S8192x1) hz]

/-- CASE A's second scratch row: the second column of squared lengths, transposed. -/
theorem sout_A_1 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) :
    sout1_A_1 c i arg1 harg1 arg2 harg2 arg3 harg3 arg4 harg4 arg5 harg5 arg6 harg6 arg7 harg7 hc0 x0 x1 x2 x3 = k1_pay4 x3 := by
  unfold sout1_A_1
  rw [View.read_writes_eq_canon _ _ _ (scover1_A_1 c i arg1 harg1 arg2 harg2 arg3 harg3 arg4 harg4 arg5 harg5 arg6 harg6 arg7 harg7 hc0 x0 x1 x2 x3)]
  unfold kernelRun1_A
  dsimp only
  sl_unfold_words
  rw [View.canon_unit_zero (S := S1x8192) hz]
  simp only [View.readAt_eq_ld, harg4.read_unread, View.ld_unit_zero (S := S8192x1) hz]

/-- CASE A's accumulator (the first point): the body stores zero, reads it back, stores the two transposed rows and reads
    them back, and leaves the zero plus the tile's contribution — the last of its two covering stores. -/
theorem out_A_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : cond1_0 i)
    (x0 : Vec F S8192x256 .bf16) (x1 : Vec F S8192x256 .bf16) (x2 : Vec F S8192x1 .f32) (x3 : Vec F S8192x1 .f32) :
    out1_A_4 c i arg1 harg1 arg2 harg2 arg3 harg3 arg4 harg4 arg5 harg5 arg6 harg6 arg7 harg7 hc0 x0 x1 x2 x3
      = k1_pay1 (k1_pay11 (k1_pay2 (F := F)))
        (k1_pay12 (k1_pay6 (tileA i x1)) (k1_pay8 (tileN i x3)) (k1_pay9 x1) (k1_pay4 x3) (k1_pay10 (tileA i x0) (tileN i x2) x0 (k1_pay3 x2)))
        (k1_pay13 (k1_pay5 (tileA i x0)) (k1_pay7 (tileN i x2)) (k1_pay9 x1) (k1_pay4 x3)) := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x1) hz]
  simp only [View.readCov_unit_zero (S := S1x1) _ hz, View.readCov_unit_zero (S := S1x8192) _ hz, View.readAt_eq_ld,
    harg1.read_unread, harg2.read_unread, harg3.read_unread, harg4.read_unread, View.ld_unit_zero (S := S8192x256) hz, View.ld_unit_zero (S := S8192x1) hz]
  rfl

/-- CASE B's accumulator (every later point): over the running contents `xo4` and the two rows `xs0`, `xs1` as found, the
    running contents plus the tile's contribution — its one covering store. -/
theorem out_B_4 (c : Dev nD) (i : grid1.Coords) (arg1 : Memref sig .tc .vmem S8192x256 .bf16) (harg1 : arg1.IsWhole) (arg2 : Memref sig .tc .vmem S8192x256 .bf16) (harg2 : arg2.IsWhole) (arg3 : Memref sig .tc .vmem S8192x1 .f32) (harg3 : arg3.IsWhole) (arg4 : Memref sig .tc .vmem S8192x1 .f32) (harg4 : arg4.IsWhole) (arg5 : Memref sig .tc .vmem S1x1 .f32) (harg5 : arg5.IsWhole) (arg6 : Memref sig .tc .vmem S1x8192 .f32) (harg6 : arg6.IsWhole) (arg7 : Memref sig .tc .vmem S1x8192 .f32) (harg7 : arg7.IsWhole) (hc0 : ¬cond1_0 i)
    (x0 : Vec F S8192x256 .bf16) (x1 : Vec F S8192x256 .bf16) (x2 : Vec F S8192x1 .f32) (x3 : Vec F S8192x1 .f32) (xo4 : Vec F S1x1 .f32) (xs0 : Vec F S1x8192 .f32) (xs1 : Vec F S1x8192 .f32) :
    out1_B_4 c i arg1 harg1 arg2 harg2 arg3 harg3 arg4 harg4 arg5 harg5 arg6 harg6 arg7 harg7 hc0 x0 x1 x2 x3 xo4 xs0 xs1
      = k1_pay1 (k1_pay11 xo4)
        (k1_pay12 (k1_pay6 (tileA i x1)) (k1_pay8 (tileN i x3)) (k1_pay9 x1) xs1 (k1_pay10 (tileA i x0) (tileN i x2) x0 xs0))
        (k1_pay13 (k1_pay5 (tileA i x0)) (k1_pay7 (tileN i x2)) (k1_pay9 x1) xs1) := by
  unfold out1_B_4
  rw [View.read_writes_eq_canon _ _ _ (cover1_B_4 c i arg1 harg1 arg2 harg2 arg3 harg3 arg4 harg4 arg5 harg5 arg6 harg6 arg7 harg7 hc0 x0 x1 x2 x3 xo4 xs0 xs1)]
  unfold kernelRun1_B
  dsimp only
  sl_unfold_words
  rw [View.canon_unit_zero (S := S1x1) hz]
  simp only [View.readAt_eq_ld, harg1.read_unread, harg2.read_unread, harg3.read_unread, harg4.read_unread, harg5.read_unread, harg6.read_unread, harg7.read_unread,
    View.ld_unit_zero (S := S8192x256) hz, View.ld_unit_zero (S := S1x1) hz, View.ld_unit_zero (S := S1x8192) hz]
  rfl

end Pieces

section Blocks

variable {F : FTy → Type} [FloatOps F]
variable (V : (c : Dev nD) → (b : Ref sig .tc) → Buf (Elt F) ((c : Thread nD τ).loc b))

/-- A grid point as a tile number. -/
def tl (t : Fin cfg1.N) : Fin 32 := ⟨t.val, lt_of_lt_of_eq t.isLt N_1⟩

/-- The grid's one coordinate at point `t` is `t`. -/
theorem coord0 : ∀ t : Fin cfg1.N, ((grid1.coords t) 0).val = t.val :=
  (by decide +kernel : ∀ t : Fin grid1.N, ((grid1.coords t) 0).val = t.val)

/-- The tile's row `p` of a whole [8192, 256] block is the block's row `256 t + p`. -/
theorem tileA_apply (t : Fin cfg1.N) (x : Vec F S8192x256 .bf16) (p d : Fin 256) :
    tileA (grid1.coords t) x (ValueIdx.ix2 p d) = x (ValueIdx.ix2 (Cert.MMD.row (tl t) p) d) := by
  show x ((Rect.unit (s := S8192x256) (k1_off1 (grid1.coords t)) S256x256.size (k1_off1_inb _)).idx (ValueIdx.ix2 p d)) = _
  congr 1
  funext a
  apply Fin.ext
  match a with
  | ⟨0, _⟩ =>
    show k1_off1 (grid1.coords t) 0 + 1 * p.val = 256 * t.val + p.val
    rw [k1_off1_eq]
    show 256 * ((grid1.coords t) 0).val + 1 * p.val = 256 * t.val + p.val
    rw [coord0]; omega
  | ⟨1, _⟩ =>
    show k1_off1 (grid1.coords t) 1 + 1 * d.val = d.val
    rw [k1_off1_eq]
    show 0 + 1 * d.val = d.val
    omega

/-- The tile's entry `p` of a whole [8192, 1] column is the column's entry `256 t + p`. -/
theorem tileN_apply (t : Fin cfg1.N) (x : Vec F S8192x1 .f32) (p : Fin 256) (u : Fin 1) :
    tileN (grid1.coords t) x (ValueIdx.ix2 p u) = x (ValueIdx.ix2 (Cert.MMD.row (tl t) p) u) := by
  show x ((Rect.unit (s := S8192x1) (k1_off2 (grid1.coords t)) S256x1.size (k1_off2_inb _)).idx (ValueIdx.ix2 p u)) = _
  congr 1
  funext a
  apply Fin.ext
  match a with
  | ⟨0, _⟩ =>
    show k1_off2 (grid1.coords t) 0 + 1 * p.val = 256 * t.val + p.val
    rw [k1_off2_eq]
    show 256 * ((grid1.coords t) 0).val + 1 * p.val = 256 * t.val + p.val
    rw [coord0]; omega
  | ⟨1, _⟩ =>
    show k1_off2 (grid1.coords t) 1 + 1 * u.val = u.val
    rw [k1_off2_eq]
    show 0 + 1 * u.val = u.val
    omega

/-- Input window 0's block index is zero at every point. -/
theorem index1_0 : ∀ (t : Fin cfg1.N) a, win1_0.index t a = 0 :=
  (by decide +kernel : ∀ (t : Fin grid1.N) a, win1_0.index t a = 0)
/-- Input window 1's block index is zero at every point. -/
theorem index1_1 : ∀ (t : Fin cfg1.N) a, win1_1.index t a = 0 :=
  (by decide +kernel : ∀ (t : Fin grid1.N) a, win1_1.index t a = 0)
/-- Input window 2's block index is zero at every point. -/
theorem index1_2 : ∀ (t : Fin cfg1.N) a, win1_2.index t a = 0 :=
  (by decide +kernel : ∀ (t : Fin grid1.N) a, win1_2.index t a = 0)
/-- Input window 3's block index is zero at every point. -/
theorem index1_3 : ∀ (t : Fin cfg1.N) a, win1_3.index t a = 0 :=
  (by decide +kernel : ∀ (t : Fin grid1.N) a, win1_3.index t a = 0)

/-- Input window 0's block at any point is its whole array: the block index is constantly zero and the block is the array. -/
theorem iblk1_0 (c : Dev nD) (t : Fin cfg1.N) :
    (iblk1 V c 0 t : Vec F S8192x256 .bf16) = V c main_v0_0 := by
  unfold iblk1
  have hz' : (fun a => win1_0.index t a * main_v0_0.ty.shape.size a) = fun _ => 0 := funext fun a => by rw [index1_0 t a, Nat.zero_mul]
  exact Memref.read_access_unit_zero (Elt F) main_v0_0 hz' (fun a => by rw [congrFun hz' a]; simp) (V c main_v0_0)

/-- Input window 1's block at any point is its whole array: the block index is constantly zero and the block is the array. -/
theorem iblk1_1 (c : Dev nD) (t : Fin cfg1.N) :
    (iblk1 V c 1 t : Vec F S8192x256 .bf16) = V c main_v0_1 := by
  unfold iblk1
  have hz' : (fun a => win1_1.index t a * main_v0_1.ty.shape.size a) = fun _ => 0 := funext fun a => by rw [index1_1 t a, Nat.zero_mul]
  exact Memref.read_access_unit_zero (Elt F) main_v0_1 hz' (fun a => by rw [congrFun hz' a]; simp) (V c main_v0_1)

/-- Input window 2's block at any point is its whole array: the block index is constantly zero and the block is the array. -/
theorem iblk1_2 (c : Dev nD) (t : Fin cfg1.N) :
    (iblk1 V c 2 t : Vec F S8192x1 .f32) = V c main_v0_2 := by
  unfold iblk1
  have hz' : (fun a => win1_2.index t a * main_v0_2.ty.shape.size a) = fun _ => 0 := funext fun a => by rw [index1_2 t a, Nat.zero_mul]
  exact Memref.read_access_unit_zero (Elt F) main_v0_2 hz' (fun a => by rw [congrFun hz' a]; simp) (V c main_v0_2)

/-- Input window 3's block at any point is its whole array: the block index is constantly zero and the block is the array. -/
theorem iblk1_3 (c : Dev nD) (t : Fin cfg1.N) :
    (iblk1 V c 3 t : Vec F S8192x1 .f32) = V c main_v0_3 := by
  unfold iblk1
  have hz' : (fun a => win1_3.index t a * main_v0_3.ty.shape.size a) = fun _ => 0 := funext fun a => by rw [index1_3 t a, Nat.zero_mul]
  exact Memref.read_access_unit_zero (Elt F) main_v0_3 hz' (fun a => by rw [congrFun hz' a]; simp) (V c main_v0_3)

end Blocks

section Rows

variable {F : FTy → Type} [FloatOps F]
variable (V : (c : Dev nD) → (b : Ref sig .tc) → Buf (Elt F) ((c : Thread nD τ).loc b))

/-- After every point the two scratch rows hold the two columns of squared lengths, transposed: the first point stores
    them, every later point leaves them as found. -/
theorem rows_eq (c : Dev nD) : ∀ (n : ℕ) (hn : n < cfg1.N),
    (outsAt1 V c n hn).2.1 = k1_pay3 (V c main_v0_2) ∧ (outsAt1 V c n hn).2.2 = k1_pay4 (V c main_v0_3) := by
  intro n
  induction n with
  | zero =>
    intro hn
    rw [show outsAt1 V c 0 hn = _ from outsAt1_A V c ⟨0, hn⟩ rfl]
    dsimp only
    rw [sout_A_0, sout_A_1, iblk1_2, iblk1_3]
    exact ⟨rfl, rfl⟩
  | succ n ih =>
    intro hn
    have hN : cfg1.N = 32 := N_1
    have hB : ¬(⟨n + 1, hn⟩ : Fin cfg1.N).val % 32 = 0 := by dsimp only; omega
    rw [show outsAt1 V c (n + 1) hn = _ from outsAt1_B V c ⟨n + 1, hn⟩ hB]
    dsimp only
    unfold sout1_B_0 sout1_B_1
    exact ih _

/-! ## From the last point to the array -/

/-- The last point. -/
def t31 : Fin cfg1.N := ⟨31, lt_of_lt_of_eq (by decide) N_1.symm⟩

/-- The accumulator's block index is zero at every point. -/
theorem index1_4 : ∀ (t : Fin cfg1.N) a, win1_4.index t a = 0 :=
  (by decide +kernel : ∀ (t : Fin grid1.N) a, win1_4.index t a = 0)

/-- What the accumulator's staging buffer holds after the last point, as contents of the [1, 1] result array. -/
abbrev result (c : Dev nD) : Buf (Elt F) ((c : Thread nD τ).loc main_v1) := (outsAt1 V c 31 t31.isLt).1

/-- The one write-back, at the last point, writes it: the block is the array. -/
theorem flushed_eq (c : Dev nD) (t : Fin cfg1.N) (hf : (cfg1.win 4).flush t = true) :
    (dat1 V c).flushed 4 t = ((cfg1.win 4).blk t).view.read (Elt F) (result V c) := by
  have hN : cfg1.N = 32 := N_1
  have h31 : t.val = 31 := by have := (flush1_4 t).mp hf; have := t.isLt; omega
  obtain rfl : t = t31 := Fin.ext h31
  show (cfg1.win 4).cut (grid1.coords t31) ((dat1 V c).after 4 t31) = _
  rw [after1_4]
  have hz' : (fun a => win1_4.index t31 a * main_v1.ty.shape.size a) = fun _ => 0 :=
    funext fun a => by rw [index1_4 t31 a, Nat.zero_mul]
  exact (Memref.read_access_unit_zero (Elt F) main_v1 hz' (fun a => by rw [congrFun hz' a]; simp) (result V c)).symm

/-- So the result array ends holding the accumulator's contents after the last point. -/
theorem final_4 (c : Dev nD) : (dat1 V c).arrAt 4 cfg1.N = result V c :=
  (dat1 V c).arrAt_eq_of_cover 4 (result V c) (flushed_eq V c) fun i =>
    ⟨t31, (flush1_4 t31).mpr rfl, by
      show i ∈ ((View.whole main_v1).slice (win1_4.rect t31)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index t31 0 * win1_4.size 0 ≤ (i 0 : Nat) ∧ (i 0 : Nat) < win1_4.index t31 0 * win1_4.size 0 + win1_4.xsize (grid1.coords t31) 0
        rw [show win1_4.index t31 0 * win1_4.size 0 = 0 from by decide +kernel, show win1_4.xsize (grid1.coords t31) 0 = 1 from by decide +kernel]; omega
      | ⟨1, _⟩ =>
        show win1_4.index t31 1 * win1_4.size 1 ≤ (i 1 : Nat) ∧ (i 1 : Nat) < win1_4.index t31 1 * win1_4.size 1 + win1_4.xsize (grid1.coords t31) 1
        rw [show win1_4.index t31 1 * win1_4.size 1 = 0 from by decide +kernel, show win1_4.xsize (grid1.coords t31) 1 = 1 from by decide +kernel]; omega⟩

end Rows

section Acc

open Cert.MMD Cert.KernelIdeal.PairMath Idealize.ShloMosaic.ValueIdx

variable (V : (c : Dev nD) → (b : Ref sig .tc) → Buf (Elt Ideal) ((c : Thread nD τ).loc b)) (c : Dev nD)
  (a b : Cert.MMD.SA.Idx → EReal)
  (h0 : (V c main_v0_0 : S8192x256.Idx → EReal) = a) (h1 : (V c main_v0_1 : S8192x256.Idx → EReal) = b)
  (h2 : (V c main_v0_2 : S8192x1.Idx → EReal) = fun i => Cert.MMD.sqn a ⟨(i 0).val, (i 0).isLt⟩)
  (h3 : (V c main_v0_3 : S8192x1.Idx → EReal) = fun i => Cert.MMD.sqn b ⟨(i 0).val, (i 0).isLt⟩)
include h0 h1 h2 h3

/-- One point's store, read at its one index: when the two feature arrays are `a`, `b` and the two columns their squared row
    lengths, the accumulator plus tile `t`'s contribution — the three totals are the tile sums of `(a, a)`, `(b, b)`, `(a, b)`. -/
theorem point_value (t : Fin cfg1.N) (acc : Vec Ideal S1x1 .f32) :
    k1_pay1 (F := Ideal) (k1_pay11 acc)
        (k1_pay12 (k1_pay6 (tileA (grid1.coords t) (V c main_v0_1))) (k1_pay8 (tileN (grid1.coords t) (V c main_v0_3))) (k1_pay9 (V c main_v0_1)) (k1_pay4 (V c main_v0_3))
          (k1_pay10 (tileA (grid1.coords t) (V c main_v0_0)) (tileN (grid1.coords t) (V c main_v0_2)) (V c main_v0_0) (k1_pay3 (V c main_v0_2))))
        (k1_pay13 (k1_pay5 (tileA (grid1.coords t) (V c main_v0_0))) (k1_pay7 (tileN (grid1.coords t) (V c main_v0_2))) (k1_pay9 (V c main_v0_1)) (k1_pay4 (V c main_v0_3)))
        (ix2 (0 : Fin 1) (0 : Fin 1))
      = acc (ix2 (0 : Fin 1) (0 : Fin 1)) + contrib a b (tl t) := by
  have hlA : ∀ (p d : Fin 256), tileA (grid1.coords t) (V c main_v0_0) (ix2 p d) = a (ix2 (row (tl t) p) d) :=
    fun p d => (tileA_apply t _ p d).trans (congrFun h0 _)
  have hlB : ∀ (p d : Fin 256), tileA (grid1.coords t) (V c main_v0_1) (ix2 p d) = b (ix2 (row (tl t) p) d) :=
    fun p d => (tileA_apply t _ p d).trans (congrFun h1 _)
  have hxA : ∀ p : Fin 256, tileN (grid1.coords t) (V c main_v0_2) (ix2 p (0 : Fin 1)) = sqn a (row (tl t) p) :=
    fun p => (tileN_apply t _ p 0).trans (congrFun h2 _)
  have hxB : ∀ p : Fin 256, tileN (grid1.coords t) (V c main_v0_3) (ix2 p (0 : Fin 1)) = sqn b (row (tl t) p) :=
    fun p => (tileN_apply t _ p 0).trans (congrFun h3 _)
  have hrA : ∀ (s : Fin 8192) (d : Fin 256), (V c main_v0_0 : S8192x256.Idx → EReal) (ix2 s d) = a (ix2 s d) := fun s d => congrFun h0 _
  have hrB : ∀ (s : Fin 8192) (d : Fin 256), (V c main_v0_1 : S8192x256.Idx → EReal) (ix2 s d) = b (ix2 s d) := fun s d => congrFun h1 _
  have hyA : ∀ s : Fin 8192, k1_pay3 (F := Ideal) (V c main_v0_2) (ix2 (0 : Fin 1) s) = sqn a s :=
    fun s => (pay3_apply _ s).trans (congrFun h2 _)
  have hyB : ∀ s : Fin 8192, k1_pay4 (F := Ideal) (V c main_v0_3) (ix2 (0 : Fin 1) s) = sqn b s :=
    fun s => (pay4_apply _ s).trans (congrFun h3 _)
  rw [point_apply]
  congr 1
  exact contrib_eq a b (tl t) _ _ _
    (tile_eq a a (tl t) _ _ _ _ hlA hxA hrA hyA)
    (tile_eq b b (tl t) _ _ _ _ hlB hxB hrB hyB)
    (tile_eq a b (tl t) _ _ _ _ hlA hxA hrB hyB)

/-- After point `n` the accumulator's staging buffer holds the accumulator of the closed form after tile `n`: the first point
    resets it to zero and adds tile 0's contribution, each later point adds its own onto what the point before left. -/
theorem acc_eq : ∀ (n : ℕ) (hn : n < cfg1.N), (outsAt1 V c n hn).1 (ix2 (0 : Fin 1) (0 : Fin 1)) = kerAcc a b n := by
  intro n
  induction n with
  | zero =>
    intro hn
    rw [show outsAt1 V c 0 hn = _ from outsAt1_A V c ⟨0, hn⟩ rfl]
    dsimp only
    rw [out_A_4, iblk1_0, iblk1_1, iblk1_2, iblk1_3, point_value V c a b h0 h1 h2 h3 ⟨0, hn⟩, pay2_apply, kerAcc_zero]
    try rfl
  | succ n ih =>
    intro hn
    have hN : cfg1.N = 32 := N_1
    have hB : ¬(⟨n + 1, hn⟩ : Fin cfg1.N).val % 32 = 0 := by dsimp only; omega
    rw [show outsAt1 V c (n + 1) hn = _ from outsAt1_B V c ⟨n + 1, hn⟩ hB]
    dsimp only
    rw [out_B_4, iblk1_0, iblk1_1, iblk1_2, iblk1_3, (rows_eq V c _ _).1, (rows_eq V c _ _).2,
      point_value V c a b h0 h1 h2 h3 ⟨n + 1, hn⟩, kerAcc_succ a b n (by omega)]
    exact congrArg₂ (· + ·) (ih _) rfl

end Acc

end Pair

/-- THE VALUE OF THE PAIRWISE REGION. When the region is entered with the two feature arrays at `a`, `b` and the two columns at
    their squared row lengths, the accumulator's [1, 1] array ends holding the closed form's accumulator after the last of
    the 32 tiles. -/
theorem pair_arr4 (V : (c : Dev nD) → (b : Ref sig .tc) → Buf (Elt Ideal) ((c : Thread nD τ).loc b)) (c : Dev nD) (a b : Cert.MMD.SA.Idx → EReal)
    (h0 : (V c main_v0_0 : S8192x256.Idx → EReal) = a) (h1 : (V c main_v0_1 : S8192x256.Idx → EReal) = b)
    (h2 : (V c main_v0_2 : S8192x1.Idx → EReal) = fun i => Cert.MMD.sqn a ⟨(i 0).val, (i 0).isLt⟩) (h3 : (V c main_v0_3 : S8192x1.Idx → EReal) = fun i => Cert.MMD.sqn b ⟨(i 0).val, (i 0).isLt⟩) :
    ((dat1 (F := Ideal) V c).arrAt 4 cfg1.N : S1x1.Idx → EReal) = fun _ => Cert.MMD.kerAcc a b 31 := by
  rw [Pair.final_4]
  funext i
  have hi : i = ValueIdx.ix2 (0 : Fin 1) (0 : Fin 1) := funext fun d => by
    match d with
    | ⟨0, _⟩ => exact Fin.ext (by have : (i 0 : ℕ) < 1 := (i 0).isLt; show (i 0 : ℕ) = 0; omega)
    | ⟨1, _⟩ => exact Fin.ext (by have : (i 1 : ℕ) < 1 := (i 1).isLt; show (i 1 : ℕ) = 0; omega)
  rw [hi]
  exact Pair.acc_eq V c a b h0 h1 h2 h3 31 _

end Cert.KernelIdeal.Frm

end
-- ==== Proof.KI.Value.lean ====
/-
  The value of the idealized program's result: the returned scalar is the kernel's closed form `Cert.MMD.kerG` of the
  three argument arrays. The gating region leaves the gated features `x · g`, `y · g` and their rows' squared lengths;
  the pairwise region, entered with these, leaves the accumulator after the last tile; the reshape returns its one entry.
-/
import proofs.«180728_j75256416960849_1_alg».proof.Proof.KI.Run
import proofs.«180728_j75256416960849_1_alg».proof.Proof.KI.GateValue
import proofs.«180728_j75256416960849_1_alg».proof.Proof.KI.PairValue
import proofs.«180728_j75256416960849_1_alg».proof.Proof.Spec

noncomputable section

namespace Cert.KernelIdeal.Frm

open Cert.KernelIdeal Cert.KernelIdeal.Gen
open Idealize.ShloMosaic Idealize.ShloMosaic.TcCoe Idealize.SL.Sem Cert.MMD

variable (m : (ℓ : Loc nD τ sig) → Buf (Elt Ideal) ℓ) (ρ : Dev nD → PrngReg)

/-- The gated high features, as the pairwise region finds them. -/
theorem entry_fh (c : Dev nD) : (V1 (F := Ideal) m ρ c main_v0_0 : S8192x256.Idx → EReal)
    = gate (m ((c : Thread nD τ).loc main_arg0)) (m ((c : Thread nD τ).loc main_arg2)) :=
  (W1_arr m ρ c 3).trans (gate_arr3 (V0 m ρ) c)
/-- The gated low features. -/
theorem entry_fl (c : Dev nD) : (V1 (F := Ideal) m ρ c main_v0_1 : S8192x256.Idx → EReal)
    = gate (m ((c : Thread nD τ).loc main_arg1)) (m ((c : Thread nD τ).loc main_arg2)) :=
  (W1_arr m ρ c 4).trans (gate_arr4 (V0 m ρ) c)
/-- The rows' squared lengths of the gated high features. -/
theorem entry_fhn (c : Dev nD) : (V1 (F := Ideal) m ρ c main_v0_2 : S8192x1.Idx → EReal)
    = fun i => sqn (gate (m ((c : Thread nD τ).loc main_arg0)) (m ((c : Thread nD τ).loc main_arg2))) ⟨(i 0).val, (i 0).isLt⟩ :=
  (W1_arr m ρ c 5).trans (gate_arr5 (V0 m ρ) c)
/-- The rows' squared lengths of the gated low features. -/
theorem entry_fln (c : Dev nD) : (V1 (F := Ideal) m ρ c main_v0_3 : S8192x1.Idx → EReal)
    = fun i => sqn (gate (m ((c : Thread nD τ).loc main_arg1)) (m ((c : Thread nD τ).loc main_arg2))) ⟨(i 0).val, (i 0).isLt⟩ :=
  (W1_arr m ρ c 6).trans (gate_arr6 (V0 m ρ) c)

/-- The returned scalar at the end of the run. -/
theorem result_value (c : Dev nD) :
    (W3 (F := Ideal) m ρ c (Proc.devRef .tc main_v2) : S_.Idx → EReal)
      = fun _ => kerG (m ((c : Thread nD τ).loc main_arg0)) (m ((c : Thread nD τ).loc main_arg1)) (m ((c : Thread nD τ).loc main_arg2)) := by
  funext i
  rw [W3_main_v2 m ρ c i]
  have e : (W2 (F := Ideal) m ρ c (Proc.devRef .tc main_v1) : S1x1.Idx → EReal) = (dat1 (V1 m ρ) c).arrAt 4 cfg1.N := W2_arr m ρ c 4
  rw [e, pair_arr4 (V1 m ρ) c _ _ (entry_fh m ρ c) (entry_fl m ρ c) (entry_fhn m ρ c) (entry_fln m ρ c)]
  rfl

/-- Every weakly fair execution of the idealized program terminates with the result at `kerG` of the arguments and the
    arguments unchanged. -/
theorem value_run : θ_run defs (onTc (τ := τ) (main (F := Ideal))) ⟨m, fun _ => 0, ρ⟩ (fun r => ∀ c : Dev nD,
      r.2.mem ((c.tc : Thread nD τ).loc main_v2)
        = (fun _ => kerG (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (result_value m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Frm

end
-- ==== Proof.RefValue.lean ====
/-
  The reference's run read back at `Ideal`: its result is the closed form `Cert.MMD.refG` of the three arguments.

  With `a = x · g` and `b = y · g` entrywise, the reference forms, for each of the pairs `(a, a)`, `(b, b)`, `(a, b)`:
  the rows' squared lengths (a row sum of squares), their outer sum `sqn · r + sqn · s`, the matrix of inner products
  `dot · · r s`, the squared distance `sqn + sqn - 2 · dot`, the entry `exp (-dist / 2)` and the sum of the entries over
  all pairs of rows. The three sums are divided by `2^26` and combined as `hh + ll - 2 · hl`. Every stage is read at an
  index built from its coordinates (`ix1 r`, `ix2 r s` with `r, s : Fin 8192`), one lemma per stage, the three blocks
  alike; the float literals stay the words the program prints.
-/
import proofs.«180728_j75256416960849_1_alg».proof.Proof.Gen.ReferenceIdeal.Read
import proofs.«180728_j75256416960849_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.MMD

/-- An array of 8192 rows of 256 entries, at the exact instance: a function of the index into the extended reals. -/
abbrev Arr : Type := (⟨S8192x256, .f32⟩ : BufTy).Contents (Elt Ideal)

/-- The first gated array is the entrywise product `x · g`. -/
theorem gate0_eq (x0 x2 : Arr) : val_main_v0 (F := Ideal) x0 x2 = gate x0 x2 := rfl

/-- The second gated array is the entrywise product `y · g`. -/
theorem gate1_eq (x1 x2 : Arr) : val_main_v1 (F := Ideal) x1 x2 = gate x1 x2 := rfl

/-! ### The block on the pair (`a`, `a`) -/

/-- The squared length of row `r` of the left array, as the row sum reads it. -/
theorem hh_sqA (x0 x2 : Arr) (r : Fin 8192) :
    val_main_v3 (F := Ideal) x0 x2 (ix1 r) = sqn (gate x0 x2) r := by
  rw [val_main_v3_apply, val_main_cst_apply, Ideal.ofBits_def, Ideal.ofBits_zero_f32, zero_add]
  unfold Cert.MMD.sqn
  refine Finset.sum_congr rfl fun k _ => ?_
  rw [val_main_v2_apply, Ideal.mulf_def, gate0_eq,
    show idx_main_v3 (ix1 r) k = ix2 r k from funext fun a => Fin.ext (by match a with | ⟨0, _⟩ => rfl | ⟨1, _⟩ => rfl)]

/-- The squared length of row `s` of the right array. -/
theorem hh_sqB (x0 x2 : Arr) (s : Fin 8192) :
    val_main_v6 (F := Ideal) x0 x2 (ix1 s) = sqn (gate x0 x2) s := by
  rw [val_main_v6_apply, val_main_cst_0_apply, Ideal.ofBits_def, Ideal.ofBits_zero_f32, zero_add]
  unfold Cert.MMD.sqn
  refine Finset.sum_congr rfl fun k _ => ?_
  rw [val_main_v5_apply, Ideal.mulf_def, gate0_eq,
    show idx_main_v6 (ix1 s) k = ix2 s k from funext fun a => Fin.ext (by match a with | ⟨0, _⟩ => rfl | ⟨1, _⟩ => rfl)]

/-- The column of squared lengths, spread along the rows of the square. -/
theorem hh_colA (x0 x2 : Arr) (r s : Fin 8192) :
    val_main_v8 (F := Ideal) x0 x2 (ix2 r s) = sqn (gate x0 x2) r := by
  rw [val_main_v8_apply, val_main_v4_apply,
    show idx_main_v4 (idx_main_v8 (ix2 r s)) = ix1 r from funext fun a => Fin.ext (by match a with | ⟨0, _⟩ => rfl)]
  exact hh_sqA x0 x2 r

/-- The row of squared lengths, spread along the columns of the square. -/
theorem hh_rowB (x0 x2 : Arr) (r s : Fin 8192) :
    val_main_v9 (F := Ideal) x0 x2 (ix2 r s) = sqn (gate x0 x2) s := by
  rw [val_main_v9_apply, val_main_v7_apply,
    show idx_main_v7 (idx_main_v9 (ix2 r s)) = ix1 s from funext fun a => Fin.ext (by match a with | ⟨0, _⟩ => rfl)]
  exact hh_sqB x0 x2 s

/-- The matrix of inner products of rows. -/
theorem hh_dot (x0 x2 : Arr) (r s : Fin 8192) :
    val_main_v12 (F := Ideal) x0 x2 (ix2 r s) = dot (gate x0 x2) (gate x0 x2) r s := by
  rw [val_main_v12_apply]
  unfold Cert.MMD.dot
  refine Finset.sum_congr rfl fun k _ => ?_
  rw [val_main_v11_apply, gate0_eq,
    show lidx_main_v12 (ix2 r s) k = ix2 r k from funext fun a => Fin.ext (by match a with | ⟨0, _⟩ => rfl | ⟨1, _⟩ => rfl),
    show idx_main_v11 (ridx_main_v12 (ix2 r s) k) = ix2 s k from funext fun a => Fin.ext (by match a with | ⟨0, _⟩ => rfl | ⟨1, _⟩ => rfl)]

/-- The literal `2` spread over the square (the factor of the inner products). -/
theorem hh_two (i : S8192x8192.Idx) : val_main_v13 (F := Ideal) i = c2 := by
  rw [val_main_v13_apply, val_main_cst_1_apply, Ideal.ofBits_def]; rfl

/-- The literal `2` spread over the square (the divisor). -/
theorem hh_two' (i : S8192x8192.Idx) : val_main_v17 (F := Ideal) i = c2 := by
  rw [val_main_v17_apply, val_main_cst_2_apply, Ideal.ofBits_def]; rfl

/-- The squared distance between row `r` and row `s`, expanded. -/
theorem hh_dist (x0 x2 : Arr) (r s : Fin 8192) :
    val_main_v15 (F := Ideal) x0 x2 (ix2 r s) = dist (gate x0 x2) (gate x0 x2) r s := by
  rw [val_main_v15_apply, Ideal.subf_def, val_main_v10_apply, Ideal.addf_def, hh_colA x0 x2, hh_rowB x0 x2,
    val_main_v14_apply, Ideal.mulf_def, hh_two, hh_dot x0 x2]
  rfl

/-- The entry `exp (-dist / 2)`. -/
theorem hh_k (x0 x2 : Arr) (r s : Fin 8192) :
    val_main_v19 (F := Ideal) x0 x2 (ix2 r s) = kRef (gate x0 x2) (gate x0 x2) r s := by
  rw [val_main_v19_apply, Ideal.hostUnary_exp_def, val_main_v18_apply, Ideal.hostDivf_def,
    val_main_v16_apply, Ideal.hostNegf_def, Ideal.negf_def, hh_dist x0 x2, hh_two']
  rfl

/-- The sum of the entries over all pairs of rows. -/
theorem hh_sum (x0 x2 : Arr) (i : S_.Idx) :
    val_main_v56 (F := Ideal) x0 x2 i = sumRef (gate x0 x2) (gate x0 x2) := by
  rw [val_main_v56_apply, val_main_cst_11_apply, Ideal.ofBits_def, Ideal.ofBits_zero_f32, zero_add,
    sum_idx2 (n0 := 8192) (n1 := 8192)]
  unfold Cert.MMD.sumRef
  exact Finset.sum_congr rfl fun r _ => Finset.sum_congr rfl fun s _ => hh_k x0 x2 r s

/-! ### The block on the pair (`b`, `b`) -/

/-- The squared length of row `r` of the left array, as the row sum reads it. -/
theorem ll_sqA (x1 x2 : Arr) (r : Fin 8192) :
    val_main_v21 (F := Ideal) x1 x2 (ix1 r) = sqn (gate x1 x2) r := by
  rw [val_main_v21_apply, val_main_cst_3_apply, Ideal.ofBits_def, Ideal.ofBits_zero_f32, zero_add]
  unfold Cert.MMD.sqn
  refine Finset.sum_congr rfl fun k _ => ?_
  rw [val_main_v20_apply, Ideal.mulf_def, gate1_eq,
    show idx_main_v21 (ix1 r) k = ix2 r k from funext fun a => Fin.ext (by match a with | ⟨0, _⟩ => rfl | ⟨1, _⟩ => rfl)]

/-- The squared length of row `s` of the right array. -/
theorem ll_sqB (x1 x2 : Arr) (s : Fin 8192) :
    val_main_v24 (F := Ideal) x1 x2 (ix1 s) = sqn (gate x1 x2) s := by
  rw [val_main_v24_apply, val_main_cst_4_apply, Ideal.ofBits_def, Ideal.ofBits_zero_f32, zero_add]
  unfold Cert.MMD.sqn
  refine Finset.sum_congr rfl fun k _ => ?_
  rw [val_main_v23_apply, Ideal.mulf_def, gate1_eq,
    show idx_main_v24 (ix1 s) k = ix2 s k from funext fun a => Fin.ext (by match a with | ⟨0, _⟩ => rfl | ⟨1, _⟩ => rfl)]

/-- The column of squared lengths, spread along the rows of the square. -/
theorem ll_colA (x1 x2 : Arr) (r s : Fin 8192) :
    val_main_v26 (F := Ideal) x1 x2 (ix2 r s) = sqn (gate x1 x2) r := by
  rw [val_main_v26_apply, val_main_v22_apply,
    show idx_main_v22 (idx_main_v26 (ix2 r s)) = ix1 r from funext fun a => Fin.ext (by match a with | ⟨0, _⟩ => rfl)]
  exact ll_sqA x1 x2 r

/-- The row of squared lengths, spread along the columns of the square. -/
theorem ll_rowB (x1 x2 : Arr) (r s : Fin 8192) :
    val_main_v27 (F := Ideal) x1 x2 (ix2 r s) = sqn (gate x1 x2) s := by
  rw [val_main_v27_apply, val_main_v25_apply,
    show idx_main_v25 (idx_main_v27 (ix2 r s)) = ix1 s from funext fun a => Fin.ext (by match a with | ⟨0, _⟩ => rfl)]
  exact ll_sqB x1 x2 s

/-- The matrix of inner products of rows. -/
theorem ll_dot (x1 x2 : Arr) (r s : Fin 8192) :
    val_main_v30 (F := Ideal) x1 x2 (ix2 r s) = dot (gate x1 x2) (gate x1 x2) r s := by
  rw [val_main_v30_apply]
  unfold Cert.MMD.dot
  refine Finset.sum_congr rfl fun k _ => ?_
  rw [val_main_v29_apply, gate1_eq,
    show lidx_main_v30 (ix2 r s) k = ix2 r k from funext fun a => Fin.ext (by match a with | ⟨0, _⟩ => rfl | ⟨1, _⟩ => rfl),
    show idx_main_v29 (ridx_main_v30 (ix2 r s) k) = ix2 s k from funext fun a => Fin.ext (by match a with | ⟨0, _⟩ => rfl | ⟨1, _⟩ => rfl)]

/-- The literal `2` spread over the square (the factor of the inner products). -/
theorem ll_two (i : S8192x8192.Idx) : val_main_v31 (F := Ideal) i = c2 := by
  rw [val_main_v31_apply, val_main_cst_5_apply, Ideal.ofBits_def]; rfl

/-- The literal `2` spread over the square (the divisor). -/
theorem ll_two' (i : S8192x8192.Idx) : val_main_v35 (F := Ideal) i = c2 := by
  rw [val_main_v35_apply, val_main_cst_6_apply, Ideal.ofBits_def]; rfl

/-- The squared distance between row `r` and row `s`, expanded. -/
theorem ll_dist (x1 x2 : Arr) (r s : Fin 8192) :
    val_main_v33 (F := Ideal) x1 x2 (ix2 r s) = dist (gate x1 x2) (gate x1 x2) r s := by
  rw [val_main_v33_apply, Ideal.subf_def, val_main_v28_apply, Ideal.addf_def, ll_colA x1 x2, ll_rowB x1 x2,
    val_main_v32_apply, Ideal.mulf_def, ll_two, ll_dot x1 x2]
  rfl

/-- The entry `exp (-dist / 2)`. -/
theorem ll_k (x1 x2 : Arr) (r s : Fin 8192) :
    val_main_v37 (F := Ideal) x1 x2 (ix2 r s) = kRef (gate x1 x2) (gate x1 x2) r s := by
  rw [val_main_v37_apply, Ideal.hostUnary_exp_def, val_main_v36_apply, Ideal.hostDivf_def,
    val_main_v34_apply, Ideal.hostNegf_def, Ideal.negf_def, ll_dist x1 x2, ll_two']
  rfl

/-- The sum of the entries over all pairs of rows. -/
theorem ll_sum (x1 x2 : Arr) (i : S_.Idx) :
    val_main_v58 (F := Ideal) x1 x2 i = sumRef (gate x1 x2) (gate x1 x2) := by
  rw [val_main_v58_apply, val_main_cst_13_apply, Ideal.ofBits_def, Ideal.ofBits_zero_f32, zero_add,
    sum_idx2 (n0 := 8192) (n1 := 8192)]
  unfold Cert.MMD.sumRef
  exact Finset.sum_congr rfl fun r _ => Finset.sum_congr rfl fun s _ => ll_k x1 x2 r s

/-! ### The block on the pair (`a`, `b`) -/

/-- The squared length of row `r` of the left array, as the row sum reads it. -/
theorem hl_sqA (x0 x1 x2 : Arr) (r : Fin 8192) :
    val_main_v39 (F := Ideal) x0 x2 (ix1 r) = sqn (gate x0 x2) r := by
  rw [val_main_v39_apply, val_main_cst_7_apply, Ideal.ofBits_def, Ideal.ofBits_zero_f32, zero_add]
  unfold Cert.MMD.sqn
  refine Finset.sum_congr rfl fun k _ => ?_
  rw [val_main_v38_apply, Ideal.mulf_def, gate0_eq,
    show idx_main_v39 (ix1 r) k = ix2 r k from funext fun a => Fin.ext (by match a with | ⟨0, _⟩ => rfl | ⟨1, _⟩ => rfl)]

/-- The squared length of row `s` of the right array. -/
theorem hl_sqB (x0 x1 x2 : Arr) (s : Fin 8192) :
    val_main_v42 (F := Ideal) x1 x2 (ix1 s) = sqn (gate x1 x2) s := by
  rw [val_main_v42_apply, val_main_cst_8_apply, Ideal.ofBits_def, Ideal.ofBits_zero_f32, zero_add]
  unfold Cert.MMD.sqn
  refine Finset.sum_congr rfl fun k _ => ?_
  rw [val_main_v41_apply, Ideal.mulf_def, gate1_eq,
    show idx_main_v42 (ix1 s) k = ix2 s k from funext fun a => Fin.ext (by match a with | ⟨0, _⟩ => rfl | ⟨1, _⟩ => rfl)]

/-- The column of squared lengths, spread along the rows of the square. -/
theorem hl_colA (x0 x1 x2 : Arr) (r s : Fin 8192) :
    val_main_v44 (F := Ideal) x0 x2 (ix2 r s) = sqn (gate x0 x2) r := by
  rw [val_main_v44_apply, val_main_v40_apply,
    show idx_main_v40 (idx_main_v44 (ix2 r s)) = ix1 r from funext fun a => Fin.ext (by match a with | ⟨0, _⟩ => rfl)]
  exact hl_sqA x0 x1 x2 r

/-- The row of squared lengths, spread along the columns of the square. -/
theorem hl_rowB (x0 x1 x2 : Arr) (r s : Fin 8192) :
    val_main_v45 (F := Ideal) x1 x2 (ix2 r s) = sqn (gate x1 x2) s := by
  rw [val_main_v45_apply, val_main_v43_apply,
    show idx_main_v43 (idx_main_v45 (ix2 r s)) = ix1 s from funext fun a => Fin.ext (by match a with | ⟨0, _⟩ => rfl)]
  exact hl_sqB x0 x1 x2 s

/-- The matrix of inner products of rows. -/
theorem hl_dot (x0 x1 x2 : Arr) (r s : Fin 8192) :
    val_main_v48 (F := Ideal) x0 x1 x2 (ix2 r s) = dot (gate x0 x2) (gate x1 x2) r s := by
  rw [val_main_v48_apply]
  unfold Cert.MMD.dot
  refine Finset.sum_congr rfl fun k _ => ?_
  rw [val_main_v47_apply, gate0_eq, gate1_eq,
    show lidx_main_v48 (ix2 r s) k = ix2 r k from funext fun a => Fin.ext (by match a with | ⟨0, _⟩ => rfl | ⟨1, _⟩ => rfl),
    show idx_main_v47 (ridx_main_v48 (ix2 r s) k) = ix2 s k from funext fun a => Fin.ext (by match a with | ⟨0, _⟩ => rfl | ⟨1, _⟩ => rfl)]

/-- The literal `2` spread over the square (the factor of the inner products). -/
theorem hl_two (i : S8192x8192.Idx) : val_main_v49 (F := Ideal) i = c2 := by
  rw [val_main_v49_apply, val_main_cst_9_apply, Ideal.ofBits_def]; rfl

/-- The literal `2` spread over the square (the divisor). -/
theorem hl_two' (i : S8192x8192.Idx) : val_main_v53 (F := Ideal) i = c2 := by
  rw [val_main_v53_apply, val_main_cst_10_apply, Ideal.ofBits_def]; rfl

/-- The squared distance between row `r` and row `s`, expanded. -/
theorem hl_dist (x0 x1 x2 : Arr) (r s : Fin 8192) :
    val_main_v51 (F := Ideal) x0 x1 x2 (ix2 r s) = dist (gate x0 x2) (gate x1 x2) r s := by
  rw [val_main_v51_apply, Ideal.subf_def, val_main_v46_apply, Ideal.addf_def, hl_colA x0 x1 x2, hl_rowB x0 x1 x2,
    val_main_v50_apply, Ideal.mulf_def, hl_two, hl_dot x0 x1 x2]
  rfl

/-- The entry `exp (-dist / 2)`. -/
theorem hl_k (x0 x1 x2 : Arr) (r s : Fin 8192) :
    val_main_v55 (F := Ideal) x0 x1 x2 (ix2 r s) = kRef (gate x0 x2) (gate x1 x2) r s := by
  rw [val_main_v55_apply, Ideal.hostUnary_exp_def, val_main_v54_apply, Ideal.hostDivf_def,
    val_main_v52_apply, Ideal.hostNegf_def, Ideal.negf_def, hl_dist x0 x1 x2, hl_two']
  rfl

/-- The sum of the entries over all pairs of rows. -/
theorem hl_sum (x0 x1 x2 : Arr) (i : S_.Idx) :
    val_main_v61 (F := Ideal) x0 x1 x2 i = sumRef (gate x0 x2) (gate x1 x2) := by
  rw [val_main_v61_apply, val_main_cst_15_apply, Ideal.ofBits_def, Ideal.ofBits_zero_f32, zero_add,
    sum_idx2 (n0 := 8192) (n1 := 8192)]
  unfold Cert.MMD.sumRef
  exact Finset.sum_congr rfl fun r _ => Finset.sum_congr rfl fun s _ => hl_k x0 x1 x2 r s

/-! ### The three sums combined -/

/-- The result: `hh / 2^26 + ll / 2^26 - (2 · hl) / 2^26`, at the one index of the scalar shape. -/
theorem result_eq (x0 x1 x2 : (⟨Cert.ReferenceIdeal.S8192x256, .f32⟩ : BufTy).Contents (Elt Ideal)) :
    Cert.ReferenceIdeal.Read.val_main_v64 (F := Ideal) x0 x1 x2 = fun _ => Cert.MMD.refG x0 x1 x2 := by
  funext i
  rw [val_main_v64_apply, Ideal.subf_def, val_main_v60_apply, Ideal.addf_def,
    val_main_v57_apply, Ideal.hostDivf_def, hh_sum x0 x2, val_main_cst_12_apply, Ideal.ofBits_def,
    val_main_v59_apply, Ideal.hostDivf_def, ll_sum x1 x2, val_main_cst_14_apply, Ideal.ofBits_def,
    val_main_v63_apply, Ideal.hostDivf_def, val_main_v62_apply, Ideal.mulf_def, val_main_cst_16_apply, Ideal.ofBits_def,
    hl_sum x0 x1 x2, val_main_cst_17_apply, Ideal.ofBits_def]
  rfl

end Cert.ReferenceIdeal.RefValue

end
-- ==== Proof.Law.lean ====
/-
  The law joining the two closed forms of the pairwise radial-basis discrepancy on real-valued inputs.

  On arrays all of whose entries are real numbers every quantity of either form is the image of a real number: the
  gated entries, the squared lengths, the inner products, the squared distances, the kernel entries (the two
  spellings `exp (-d / 2)` and `exp ((0 - d) · ½)` are the same real `exp (-d · ½)`), the sums over all pairs and the
  sums over a tile. The 8192 rows are the 32 tiles of 256 rows, so the sum over all rows is the sum over the tiles
  of the sums over a tile's rows. With `c = 2^-26` the accumulated form is `∑ t, (hh t · c + ll t · c + hl t · (-2c))`
  and the reference's is `(∑ t, hh t) · c + (∑ t, ll t) · c - (2 · ∑ t, hl t) · c`; these agree in the real field.
-/
import proofs.«180728_j75256416960849_1_alg».proof.Proof.Spec
import Idealize.ShloMosaic.PureOps.Ideal

noncomputable section

open scoped BigOperators

namespace Cert.MMD

open Idealize.ShloMosaic Idealize.ShloMosaic.ValueIdx

/-! ## The literals as real numbers -/

theorem c2_eq : c2 = ((2 : ℝ) : EReal) := by
  simp [c2, Ideal.ofBits, Ideal.ieee, -EReal.coe_mul]; norm_num

theorem cHalf_eq : cHalf = ((1 / 2 : ℝ) : EReal) := by
  simp [cHalf, Ideal.ofBits, Ideal.ieee, -EReal.coe_mul]; norm_num

theorem c0_eq : c0 = 0 := by
  simp [c0, Ideal.ofBits, Ideal.ieee]

theorem cInv_eq : cInv = ((1 / 67108864 : ℝ) : EReal) := by
  simp [cInv, Ideal.ofBits, Ideal.ieee, -EReal.coe_mul]; norm_num

theorem cNegInv2_eq : cNegInv2 = ((-1 / 33554432 : ℝ) : EReal) := by
  simp [cNegInv2, Ideal.ofBits, Ideal.ieee, -EReal.coe_mul]; norm_num

theorem cNN_eq : cNN = ((67108864 : ℝ) : EReal) := by
  simp [cNN, Ideal.ofBits, Ideal.ieee, -EReal.coe_mul]; norm_num

/-! ## Real arrays inside the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real array, read in the extended reals. -/
def toE (A : SA.Idx → ℝ) : SA.Idx → EReal := fun i => (A i : EReal)

/-- The real counterparts of the squared length, the inner product, the squared distance, the kernel entry
    `exp (-d · ½)`, the sum over all pairs and the sum over one tile's rows. -/
def rsqn (A : SA.Idx → ℝ) (r : Fin 8192) : ℝ := ∑ d : Fin 256, A (ix2 r d) * A (ix2 r d)
def rdot (A B : SA.Idx → ℝ) (r s : Fin 8192) : ℝ := ∑ d : Fin 256, A (ix2 r d) * B (ix2 s d)
def rdist (A B : SA.Idx → ℝ) (r s : Fin 8192) : ℝ := rsqn A r + rsqn B s - 2 * rdot A B r s
def rk (A B : SA.Idx → ℝ) (r s : Fin 8192) : ℝ := Real.exp (-(rdist A B r s) * (1 / 2))
def rrow (A B : SA.Idx → ℝ) (r : Fin 8192) : ℝ := ∑ s : Fin 8192, rk A B r s
def rS (A B : SA.Idx → ℝ) : ℝ := ∑ r : Fin 8192, rrow A B r
def rT (A B : SA.Idx → ℝ) (t : Fin 32) : ℝ := ∑ p : Fin 256, rrow A B (row t p)
def rcontrib (A B : SA.Idx → ℝ) (t : Fin 32) : ℝ :=
  (rT A A t * (1 / 67108864) + rT B B t * (1 / 67108864)) + rT A B t * (-1 / 33554432)
def rcontribN (A B : SA.Idx → ℝ) (n : ℕ) : ℝ := if h : n < 32 then rcontrib A B ⟨n, h⟩ else 0

/-- Gating real-valued arrays gives a real-valued array. -/
theorem gate_toE (A G : SA.Idx → ℝ) : gate (toE A) (toE G) = toE (fun i => A i * G i) := by
  funext i
  simp only [gate, toE, EReal.coe_mul]

theorem sqn_toE (A : SA.Idx → ℝ) (r : Fin 8192) : sqn (toE A) r = ((rsqn A r : ℝ) : EReal) := by
  simp only [sqn, rsqn, toE, coe_sum, EReal.coe_mul]

theorem dot_toE (A B : SA.Idx → ℝ) (r s : Fin 8192) : dot (toE A) (toE B) r s = ((rdot A B r s : ℝ) : EReal) := by
  simp only [dot, rdot, toE, coe_sum, EReal.coe_mul]

theorem dist_toE (A B : SA.Idx → ℝ) (r s : Fin 8192) :
    dist (toE A) (toE B) r s = ((rdist A B r s : ℝ) : EReal) := by
  rw [dist, sqn_toE, sqn_toE, dot_toE, c2_eq, rdist, EReal.coe_sub, EReal.coe_add, EReal.coe_mul]

/-- The reference's entry `exp (-d / 2)` is the real `exp (-d · ½)`. -/
theorem kRef_toE (A B : SA.Idx → ℝ) (r s : Fin 8192) : kRef (toE A) (toE B) r s = ((rk A B r s : ℝ) : EReal) := by
  rw [kRef, dist_toE, c2_eq, Ideal.div_coe (by norm_num : (2 : ℝ) ≠ 0), ← EReal.coe_neg, ← EReal.coe_mul]
  rfl

/-- The kernel's entry `exp ((0 - d) · ½)` is the same real. -/
theorem kKer_toE (A B : SA.Idx → ℝ) (r s : Fin 8192) : kKer (toE A) (toE B) r s = ((rk A B r s : ℝ) : EReal) := by
  rw [kKer, dist_toE, c0_eq, cHalf_eq, zero_sub, ← EReal.coe_neg, ← EReal.coe_mul]
  rfl

theorem sumRef_toE (A B : SA.Idx → ℝ) : sumRef (toE A) (toE B) = ((rS A B : ℝ) : EReal) := by
  simp only [sumRef, rS, rrow, kRef_toE, coe_sum]

theorem tileSum_toE (A B : SA.Idx → ℝ) (t : Fin 32) : tileSum (toE A) (toE B) t = ((rT A B t : ℝ) : EReal) := by
  simp only [tileSum, rT, rrow, kKer_toE, coe_sum]

theorem contrib_toE (A B : SA.Idx → ℝ) (t : Fin 32) : contrib (toE A) (toE B) t = ((rcontrib A B t : ℝ) : EReal) := by
  rw [contrib, tileSum_toE, tileSum_toE, tileSum_toE, cInv_eq, cNegInv2_eq, ← EReal.coe_mul, ← EReal.coe_mul,
    ← EReal.coe_mul, ← EReal.coe_add, ← EReal.coe_add]
  rfl

theorem contribN_toE (A B : SA.Idx → ℝ) (n : ℕ) : contribN (toE A) (toE B) n = ((rcontribN A B n : ℝ) : EReal) := by
  unfold contribN rcontribN
  split_ifs with h
  · exact contrib_toE A B ⟨n, h⟩
  · exact EReal.coe_zero.symm

/-- The accumulator after tile `n` is the sum of the first `n + 1` contributions. -/
theorem kerAcc_toE (A B : SA.Idx → ℝ) :
    ∀ n : ℕ, kerAcc (toE A) (toE B) n = ((∑ t ∈ Finset.range (n + 1), rcontribN A B t : ℝ) : EReal)
  | 0 => by
    rw [kerAcc, contribN_toE, c0_eq, zero_add, Finset.sum_range_one]
  | n + 1 => by
    rw [kerAcc, kerAcc_toE A B n, contribN_toE, ← EReal.coe_add, ← Finset.sum_range_succ _ (n + 1)]

/-! ## The rows are the tiles' rows -/

/-- `(t, p) ↦ 256 t + p` identifies the 32 × 256 pairs with the 8192 rows. -/
def rowEquiv : Fin 32 × Fin 256 ≃ Fin 8192 where
  toFun x := row x.1 x.2
  invFun r := (⟨r.val / 256, by have := r.isLt; omega⟩, ⟨r.val % 256, Nat.mod_lt _ (by norm_num)⟩)
  left_inv x := by
    obtain ⟨t, p⟩ := x
    have ht := t.isLt
    have hp := p.isLt
    refine Prod.ext (Fin.ext ?_) (Fin.ext ?_)
    · show (256 * t.val + p.val) / 256 = t.val
      omega
    · show (256 * t.val + p.val) % 256 = p.val
      omega
  right_inv r := by
    refine Fin.ext ?_
    show 256 * (r.val / 256) + r.val % 256 = r.val
    omega

/-- A sum over all rows is the sum over the tiles of the sums over a tile's rows. -/
theorem sum_rows (f : Fin 8192 → ℝ) : ∑ r : Fin 8192, f r = ∑ t : Fin 32, ∑ p : Fin 256, f (row t p) := by
  rw [← Equiv.sum_comp rowEquiv f, Fintype.sum_prod_type]
  rfl

theorem rS_eq (A B : SA.Idx → ℝ) : rS A B = ∑ t : Fin 32, rT A B t := by
  rw [rS, sum_rows]
  rfl

/-! ## The law -/

/-- In the real field: the tile-by-tile accumulation is the reference's combination of the three full sums. -/
theorem real_law (A B : SA.Idx → ℝ) :
    ∑ t ∈ Finset.range (31 + 1), rcontribN A B t
      = (rS A A * (1 / 67108864) + rS B B * (1 / 67108864)) - (2 * rS A B) * (1 / 67108864) := by
  have h : ∑ t ∈ Finset.range (31 + 1), rcontribN A B t = ∑ t : Fin 32, rcontrib A B t := by
    rw [Finset.sum_range]
    refine Finset.sum_congr rfl (fun t _ => ?_)
    rw [rcontribN, dif_pos t.isLt]
  rw [h, rS_eq, rS_eq, rS_eq]
  simp only [rcontrib]
  rw [Finset.sum_add_distrib, Finset.sum_add_distrib, ← Finset.sum_mul, ← Finset.sum_mul, ← Finset.sum_mul]
  ring

/-- The law on real arrays. -/
theorem kerG_eq_refG_toE (A B G : SA.Idx → ℝ) : kerG (toE A) (toE B) (toE G) = refG (toE A) (toE B) (toE G) := by
  rw [kerG, refG, gate_toE, gate_toE, kerAcc_toE, sumRef_toE, sumRef_toE, sumRef_toE, c2_eq, cNN_eq,
    Ideal.div_coe (by norm_num : (67108864 : ℝ) ≠ 0), Ideal.div_coe (by norm_num : (67108864 : ℝ) ≠ 0),
    Ideal.div_coe (by norm_num : (67108864 : ℝ) ≠ 0), ← EReal.coe_mul, ← EReal.coe_mul, ← EReal.coe_mul,
    ← EReal.coe_mul, ← EReal.coe_add, ← EReal.coe_sub, real_law]

/-- The two closed forms agree on inputs all of whose entries are real numbers. -/
theorem kerG_eq_refG (x y g : SA.Idx → EReal) (hx : Fin_ x) (hy : Fin_ y) (hg : Fin_ g) : kerG x y g = refG x y g := by
  choose ax hax using hx
  choose ay hay using hy
  choose ag hag using hg
  have ex : x = toE ax := funext hax
  have ey : y = toE ay := funext hay
  have eg : g = toE ag := funext hag
  rw [ex, ey, eg]
  exact kerG_eq_refG_toE ax ay ag

end Cert.MMD

end
-- ==== Proof.Finite.lean ====
/-
  The precondition gives finiteness: when the predicate "every entry of each of the three arrays is smaller in
  absolute value than plus infinity" holds, every entry of each array is a real number.
-/
import proofs.«180728_j75256416960849_1_alg».proof.Pre_finite_inputs
import proofs.«180728_j75256416960849_1_alg».proof.Proof.Gen.Pre_finite_inputs
import proofs.«180728_j75256416960849_1_alg».proof.Proof.Spec
import Idealize.ShloMosaic.Lib.ReduceAll

noncomputable section

namespace Cert.MMD

open Idealize.ShloMosaic Idealize.ShloMosaic.ValueIdx Cert.Pre_finite_inputs

/-- The scalar shape has one index. -/
instance subsingleton_scalar_idx : Subsingleton S_.Idx := ⟨fun a b => funext fun d => d.elim0⟩

/-- The word `0x7F800000` denotes plus infinity. -/
theorem ofBits_inf : Ideal.ofBits .f32 0x7F800000#32 = (⊤ : EReal) := by
  simp [Ideal.ofBits, Ideal.ieee]

/-- An extended real whose absolute value `max v (-v)` lies strictly below plus infinity is a real number. -/
theorem real_of_abs_lt_top (v : EReal) (h : max v (-v) < (⊤ : EReal)) : ∃ r : ℝ, v = (r : EReal) := by
  induction v using EReal.rec with
  | bot => simp at h
  | coe r => exact ⟨r, rfl⟩
  | top => simp at h

/-- One array: if the conjunction over all entries of "`|x i| < +∞`" is true, every entry is a real number. -/
theorem fin_of_all [Facts] (x : FVec Ideal S8192x256 .f32)
    (h : Host.reduce IntOp.andi
        (cmpf .olt (Host.absf x)
          (broadcastInDim S8192x256 ![] Facts.bcast_S_S8192x256 (constant S_ .f32 0x7F800000#32) : FVec Ideal S8192x256 .f32))
        (constantI S_ 1 1#1) Facts.reducesTo_S8192x256_S_d0_1 Facts.h_S_ ix0 = 1#1) : Fin_ x := by
  intro i
  have hi := Host.reduce_andi_all _ _ _ _ _ h i
  have hi' : BitVec.ofBool (decide (max (x i) (-(x i)) < Ideal.ofBits .f32 0x7F800000#32)) = 1#1 := hi
  rw [ofBits_inf] at hi'
  have hlt : max (x i) (-(x i)) < (⊤ : EReal) := by
    by_contra hn
    rw [decide_eq_false hn] at hi'
    exact absurd hi' (by decide)
  exact real_of_abs_lt_top (x i) hlt

/-- The precondition, true, makes the three arrays real-valued. -/
theorem fin_of_pre [Facts] (x y g : FVec Ideal S8192x256 .f32)
    (h : fn (F := Ideal) x y g = fun _ => 1#1) : Fin_ x ∧ Fin_ y ∧ Fin_ g := by
  have h0 := congrFun h ix0
  dsimp only [fn] at h0
  obtain ⟨h12, h3⟩ := IntOp.andi_eq_one.1 h0
  obtain ⟨h1, h2⟩ := IntOp.andi_eq_one.1 h12
  exact ⟨fin_of_all x h1, fin_of_all y h2, fin_of_all g h3⟩

end Cert.MMD

end
-- ==== Proof.lean ====
/-
  The certificate of the gated pairwise radial-basis discrepancy.

  The kernel runs in two regions. The first multiplies the two feature arrays entrywise by the gate and records each
  row's squared length. The second walks 32 tiles of 256 rows; for each tile and each of the three pairings
  (high, high), (low, low), (high, low) it sums `exp ((0 - ‖a_r - b_s‖²) · ½)` over the tile's rows `r` and all 8192
  rows `s`, the squared distance expanded as `‖a_r‖² + ‖b_s‖² - 2 ⟨a_r, b_s⟩`, and adds
  `hh · 2^-26 + ll · 2^-26 + hl · (-2^-25)` onto an accumulator that starts at zero. The reference sums
  `exp (-‖a_r - b_s‖² / 2)` over all pairs and returns `hh / 2^26 + ll / 2^26 - 2 · hl / 2^26`.

  * The three frames: each program runs to its end, faults nowhere and leaves its arguments as it found them — the
    two kernel programs by the run over their two regions, the reference by its run read back.
  * The idealization removed two round trips through the narrow float format on the gated features; each is its rule's
    statement.
  * At the ideal instance the kernel returns `Cert.MMD.kerG` of its arguments and the reference `Cert.MMD.refG`; on
    finite inputs every quantity is a real number, `(0 - d) · ½ = -d / 2`, a product with `2^-26` is a quotient by
    `2^26`, the tiles partition the rows, and the two closed forms are one number.
-/
import proofs.«180728_j75256416960849_1_alg».proof.Defs
import proofs.«180728_j75256416960849_1_alg».proof.Proof.Gen.Kernel
import proofs.«180728_j75256416960849_1_alg».proof.Proof.Gen.KernelIdeal
import proofs.«180728_j75256416960849_1_alg».proof.Proof.Gen.ReferenceIdeal
import proofs.«180728_j75256416960849_1_alg».proof.Proof.Gen.Pre_finite_inputs
import proofs.«180728_j75256416960849_1_alg».proof.Proof.Gen.ReferenceIdeal.Run
import proofs.«180728_j75256416960849_1_alg».proof.Proof.Gen.ReferenceIdeal.Read
import proofs.«180728_j75256416960849_1_alg».proof.Proof.K.Run
import proofs.«180728_j75256416960849_1_alg».proof.Proof.KI.Run
import proofs.«180728_j75256416960849_1_alg».proof.Proof.KI.Value
import proofs.«180728_j75256416960849_1_alg».proof.Proof.RefValue
import proofs.«180728_j75256416960849_1_alg».proof.Proof.Law
import proofs.«180728_j75256416960849_1_alg».proof.Proof.Finite
import Idealize.ShloMosaic.Adequacy
import Idealize.ShloMosaic.Init

noncomputable section

namespace Cert.Proof

open Idealize.ShloMosaic Idealize.SL.Sem

/-- The word-level program runs and keeps its arguments. -/
theorem frame_k : @Cert.frame_Kernel Cert.Kernel.Gen.facts Cert.Pre_finite_inputs.Gen.facts :=
  fun m ρ _ => Cert.Kernel.Frm.frame m ρ

/-- The idealized program runs and keeps its arguments. -/
theorem frame_ki : @Cert.frame_KernelIdeal Cert.KernelIdeal.Gen.facts Cert.Pre_finite_inputs.Gen.facts :=
  fun m ρ _ => Cert.KernelIdeal.Frm.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two round trips through the narrow format that the idealization removed. -/
theorem preserves : Cert.preserves_Kernel_KernelIdeal :=
  ⟨IdealRules.truncf_extf.statement _ .f32 .bf16, IdealRules.truncf_extf.statement _ .f32 .bf16⟩

/-- On finite inputs the kernel's closed form and the reference's are one number. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Frm.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.RefValue.result_eq, (hagree c).1, (hagree c).2.1, (hagree c).2.2]
  obtain ⟨hx, hy, hg⟩ := Cert.MMD.fin_of_pre _ _ _ (hpre c)
  funext _
  exact (Cert.MMD.kerG_eq_refG _ _ _ hx hy hg).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
